-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg7 : FVec F S128 .f32) (main_arg13 : FVec F S128 .f32) (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg7 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S128 .f32 := broadcastInDim S128 ![] bcast_S_S128 main_cst_30
  let main_v79 : IVec S128 1 := cmpf .oge main_arg13 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  main_v81

def fn_part3 {F : FTy → Type} [FloatOps F] (main_arg7 : FVec F S128 .f32) (main_arg12 : FVec F S128 .f32) (main_arg13 : FVec F S128 .f32) (main_arg14 : FVec F S128x2 .f32) (main_arg15 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg14
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg7 main_arg13 main_arg15 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x2 .f32) (main_arg15 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg7 main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x2 .f32) (main_arg15 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩

abbrev nBuf : Space → Nat
  | .hbm => 113
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x2, .f32⟩
  | .hbm, ⟨15, _⟩ => ⟨S2, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S100000x2, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x2, .f32⟩
  | .hbm, ⟨103, _⟩ => ⟨S1700000x1, .f32⟩
  | .hbm, ⟨104, _⟩ => ⟨S1700000x2, .f32⟩
  | .hbm, ⟨105, _⟩ => ⟨S1700000x2, .f32⟩
  | .hbm, ⟨106, _⟩ => ⟨S_, .f32⟩
  | .hbm, ⟨107, _⟩ => ⟨S100000x2, .f32⟩
  | .hbm, ⟨108, _⟩ => ⟨S1700000x1, .i32⟩
  | .hbm, ⟨109, _⟩ => ⟨S100000x2, .f32⟩
  | .hbm, ⟨110, _⟩ => ⟨S1x2, .f32⟩
  | .hbm, ⟨111, _⟩ => ⟨S100000x2, .f32⟩
  | .hbm, ⟨112, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x2, .f32⟩
  | .local _ .vmem, ⟨21, _⟩ => ⟨S10000x2, .f32⟩
  | .local _ .vmem, ⟨22, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_c_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x2_S128x2_0_0 : ∀ a, (![0, 0] : Fin 2 → Nat) a + S128x2.size a ≤ S128x2.size a
  h_S128x2 : 0 < S128x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x2_S10000x2_1_0_0_1_n_n_wf : DotDims.WF S10000x128 S128x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x2.size a ≤ S128x2.size a
  hwx2_5 : ∀ i : grid2.Coords, EltTy.bits .f32 = 32 ∨ (Rect.block (s := S128x2) S128x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x2.size a ≤ S100000x2.size a
  hwx2_6 : ∀ i : grid2.Coords, EltTy.bits .f32 = 32 ∨ (Rect.block (s := S100000x2) S10000x2.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S10000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x2, .f32⟩
  | 15 => ⟨S2, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x128, .f32⟩
  | 96 => ⟨S1700000x1, .f32⟩
  | 97 => ⟨S1700000x128, .f32⟩
  | 98 => ⟨S1700000x128, .f32⟩
  | 99 => ⟨S_, .f32⟩
  | 100 => ⟨S100000x128, .f32⟩
  | 101 => ⟨S1700000x1, .i32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x2, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x2, .f32⟩
  | 5 => ⟨S1700000x1, .f32⟩
  | 6 => ⟨S1700000x2, .f32⟩
  | 7 => ⟨S1700000x2, .f32⟩
  | 8 => ⟨S_, .f32⟩
  | 9 => ⟨S100000x2, .f32⟩
  | 10 => ⟨S1700000x1, .i32⟩
  | 11 => ⟨S100000x2, .f32⟩
  | 12 => ⟨S1x2, .f32⟩
  | 13 => ⟨S100000x2, .f32⟩
  | 14 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call1_cst : Ref sig .tc := ⟨.hbm, 120, rfl⟩
abbrev main_call1_v0 : Ref sig .tc := ⟨.hbm, 121, rfl⟩
abbrev main_v88 : Ref sig .tc := ⟨.hbm, 122, rfl⟩
abbrev main_v89 : Ref sig .tc := ⟨.hbm, 123, rfl⟩
abbrev main_c_12 : Ref sig .tc := ⟨.hbm, 124, rfl⟩
abbrev main_v90 : Ref sig .tc := ⟨.hbm, 125, rfl⟩
abbrev main_v91 : Ref sig .tc := ⟨.hbm, 126, rfl⟩
abbrev main_c_13 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_14 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel program's run with its result named.

  The program is seven segments: a stretch of host operations, the first product, a stretch, the first normalised
  layer, a stretch, the second normalised layer, a last stretch.  The buffer contents at the seven boundaries are a
  fold from the launch memory; every weakly fair execution ends with every unscoped buffer at the last boundary's
  contents.  Read at the result buffer this names the result; read at the sixteen argument buffers it says they are
  as launched.
-/
import proofs.«148522_j1709396983810_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_result : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Whole

end
-- ==== Proof.Spec.lean ====
/-
  The graph-convolution stack, entry by entry, on the extended reals.

  A dense layer is a plain matrix product: entry (r, q) of x · w is the sum over k of x (r, k) · w (k, q).  A
  normalised layer first sends every entry h of column k through an affine map and a cut-off at zero, and then takes the
  same product.  The affine map is written in two arrangements.  One arrangement shifts by a mean from which the bias
  has already been taken away and scales by g · (v + e)^(-1/2): (h - (mu - b)) · (g · rsqrt (v + e)) + beta.  The
  other adds the bias first, subtracts the mean, and scales by the quotient g / sqrt (v + e):
  ((h + b) - mu) · (g / sqrt (v + e)) + beta.  For a finite bias, mean and scale and a variance v ≥ 0 (so that
  v + e > 0 for the positive offset e) the two arrangements are the same extended real, whatever h is: moving a finite
  number across a difference is harmless at the infinities, and for a positive real y the reciprocal square root is the
  inverse of the square root, by which the quotient is the product.
-/
import Idealize.ShloMosaic.PureOps.Ideal
import Idealize.ShloMosaic.Lib.ValueIdx

noncomputable section

namespace Cert.Gcn

open Idealize.ShloMosaic Idealize.ShloMosaic.ValueIdx
open scoped BigOperators

/-- The variance offset: the extended real its word denotes. -/
abbrev eps : EReal := Ideal.ofBits .f32 0x3727C5AC#32

/-- The cut-off level: the extended real the zero word denotes. -/
abbrev zero : EReal := Ideal.ofBits .f32 0x00000000#32

/-- One entry, normalised with the bias already folded into the mean (`mub = mu - b`) and the scale a product with the
    reciprocal square root. -/
def actFolded (h g beta mub v : EReal) : EReal :=
  max ((h - mub) * (g * Ideal.rsqrt (v + eps)) + beta) zero

/-- One entry, normalised with the bias added first and the scale a quotient by the square root. -/
def actPlain (h b g beta mu v : EReal) : EReal :=
  max ((h + b - mu) * Ideal.div g (Ideal.sqrt (v + eps)) + beta) zero

/-- A plain matrix product, entry by entry. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, x (ix2 (⟨(i 0).val, idx2_lt0 i⟩ : Fin a) k) * w (ix2 k (⟨(i 1).val, idx2_lt1 i⟩ : Fin b))

/-- A normalised layer in the folded arrangement: the parameters are rows `[1, K]`. -/
def layerFolded {a K b : ℕ} (x : (⟨2, ![a, K]⟩ : Shape).Idx → EReal)
    (g beta mub v : (⟨2, ![1, K]⟩ : Shape).Idx → EReal) (w : (⟨2, ![K, b]⟩ : Shape).Idx → EReal) :
    (⟨2, ![a, b]⟩ : Shape).Idx → EReal :=
  fun i => ∑ k : Fin K,
    actFolded (x (ix2 (⟨(i 0).val, idx2_lt0 i⟩ : Fin a) k)) (g (ix2 (0 : Fin 1) k)) (beta (ix2 (0 : Fin 1) k))
      (mub (ix2 (0 : Fin 1) k)) (v (ix2 (0 : Fin 1) k)) * w (ix2 k (⟨(i 1).val, idx2_lt1 i⟩ : Fin b))

theorem prod_apply {a K b : ℕ} (x : (⟨2, ![a, K]⟩ : Shape).Idx → EReal) (w : (⟨2, ![K, b]⟩ : Shape).Idx → EReal)
    (r : Fin a) (q : Fin b) : prod x w (ix2 r q) = ∑ k : Fin K, x (ix2 r k) * w (ix2 k q) := rfl

theorem layerFolded_apply {a K b : ℕ} (x : (⟨2, ![a, K]⟩ : Shape).Idx → EReal)
    (g beta mub v : (⟨2, ![1, K]⟩ : Shape).Idx → EReal) (w : (⟨2, ![K, b]⟩ : Shape).Idx → EReal) (r : Fin a) (q : Fin b) :
    layerFolded x g beta mub v w (ix2 r q)
      = ∑ k : Fin K, actFolded (x (ix2 r k)) (g (ix2 (0 : Fin 1) k)) (beta (ix2 (0 : Fin 1) k))
          (mub (ix2 (0 : Fin 1) k)) (v (ix2 (0 : Fin 1) k)) * w (ix2 k q) := rfl

end Cert.Gcn

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.Region0.lean ====
import proofs.«148522_j1709396983810_1_alg».proof.Proof.Gen.KernelIdeal.Frame
import proofs.«148522_j1709396983810_1_alg».proof.Proof.Spec
import proofs.«148522_j1709396983810_1_alg».proof.Proof.LibRowOps
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The product's record: which operand coordinate is the output's, which the contraction's -/

theorem dot0_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem dot0_lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem dot0_rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem dot0_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's payload at an entry -/

/-- Entry (r, q) of what the body stores: the sum over k of the row block's (r, k) times the weights' (k, q); the
    roundings to the narrower format are the identity on the extended reals. -/
theorem pay0_entry (x0 : Vec Ideal S10000x128 .f32) (x1 : Vec Ideal S128x128 .f32) (r : Fin 10000) (q : Fin 128) :
    k0_pay1 (F := Ideal) x0 x1 (ix2 r q) = ∑ k : Fin 128, x0 (ix2 r k) * x1 (ix2 k q) := by
  unfold k0_pay1
  exact Cert.RowOps.matmul_zero_entry dot_S10000x128_S128x128_S10000x128_1_0_0_1_n_n rfl rfl
    dot0_lhs_row dot0_lhs_contr dot0_rhs_contr dot0_rhs_col none _ _ r q

/-! ## Blocks: where each window's block sits in its array -/

theorem zeros0 : (![0, 0] : Fin 2 → Nat) = fun _ => 0 := funext fun a => by fin_cases a <;> rfl

/-- The printed index maps, decided over the grid: the row window moves with the output window on the row axis, at the
    point's own number; the weight window and every column block stay at zero. -/
theorem index0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

variable (V : (c : Dev nD) → (b : Ref sig .tc) → Buf (Elt Ideal) ((c : Thread nD τ).loc b))

/-- The row window's block at point `t`, entry (r, k), is the array's entry (10000 t + r, k). -/
theorem rows0_read (c : Dev nD) (t : Fin cfg0.N) (r : Fin 10000) (k : Fin 128) (i : S100000x128.Idx)
    (hi0 : (i 0).val = t.val * 10000 + r.val) (hi1 : (i 1).val = k.val) :
    (iblk0 (F := Ideal) V c 0 t : Vec Ideal S10000x128 .f32) (ix2 r k)
      = (V c (Pipeline.arrRef spec0 0) : S100000x128.Idx → EReal) i := by
  obtain ⟨-, -, e0, e1, -, -⟩ := index0 t
  unfold iblk0
  rw [View.read_apply]
  show (V c (Pipeline.arrRef spec0 0) : S100000x128.Idx → EReal) _ = _
  congr 1
  funext a
  apply Fin.ext
  match a with
  | ⟨0, _⟩ => show win0_0.index t 0 * 10000 + 1 * r.val = (i 0).val; rw [e0, hi0]; omega
  | ⟨1, _⟩ => show win0_0.index t 1 * 128 + 1 * k.val = (i 1).val; rw [e1, hi1]; omega

/-- The weight window's block at any point is the whole weight array. -/
theorem weights0_read (c : Dev nD) (t : Fin cfg0.N) (k : Fin 128) (q : Fin 128) (i : S128x128.Idx)
    (hi0 : (i 0).val = k.val) (hi1 : (i 1).val = q.val) :
    (iblk0 (F := Ideal) V c 1 t : Vec Ideal S128x128 .f32) (ix2 k q)
      = (V c (Pipeline.arrRef spec0 1) : S128x128.Idx → EReal) i := by
  obtain ⟨-, -, -, -, e0, e1⟩ := index0 t
  unfold iblk0
  rw [View.read_apply]
  show (V c (Pipeline.arrRef spec0 1) : S128x128.Idx → EReal) _ = _
  congr 1
  funext a
  apply Fin.ext
  match a with
  | ⟨0, _⟩ => show win0_1.index t 0 * 128 + 1 * k.val = (i 0).val; rw [e0, hi0]; omega
  | ⟨1, _⟩ => show win0_1.index t 1 * 128 + 1 * q.val = (i 1).val; rw [e1, hi1]; omega

/-- The product of the two blocks at point `t`, at (r, q), is the product of the two arrays at (10000 t + r, q). -/
theorem prod_block0 (c : Dev nD) (t : Fin cfg0.N) (r : Fin 10000) (q : Fin 128) (i : S100000x128.Idx)
    (x0 : Vec Ideal S10000x128 .f32) (x1 : Vec Ideal S128x128 .f32)
    (h0 : x0 = iblk0 (F := Ideal) V c 0 t) (h1 : x1 = iblk0 (F := Ideal) V c 1 t)
    (hi0 : (i 0).val = t.val * 10000 + r.val) (hi1 : (i 1).val = q.val) :
    ∑ k : Fin 128, x0 (ix2 r k) * x1 (ix2 k q)
      = Cert.Gcn.prod (a := 100000) (K := 128) (b := 128) (V c (Pipeline.arrRef spec0 0)) (V c (Pipeline.arrRef spec0 1)) i := by
  subst h0 h1
  unfold Cert.Gcn.prod
  refine Finset.sum_congr rfl fun k _ => ?_
  rw [rows0_read V c t r k (ix2 ⟨(i 0).val, idx2_lt0 i⟩ k) hi0 rfl,
    weights0_read V c t k q (ix2 k ⟨(i 1).val, idx2_lt1 i⟩) rfl hi1]

/-- What point `t` writes back is block `t` of the product of the two arrays as the region finds them. -/
theorem flushed0_eq (c : Dev nD) (t : Fin cfg0.N) :
    (dat0 (F := Ideal) V c).flushed 2 t = ((cfg0.win 2).blk t).view.read (Elt Ideal)
      (Cert.Gcn.prod (a := 100000) (K := 128) (b := 128) (V c (Pipeline.arrRef spec0 0)) (V c (Pipeline.arrRef spec0 1))) := by
  show (cfg0.win 2).cut (grid0.coords t) ((dat0 V c).after 2 t) = _
  rw [after0_2]
  unfold out0_2
  rw [View.canon_unit_zero zeros0]
  simp only [View.ld_unit_zero (S := S10000x128) zeros0, View.ld_unit_zero (S := S128x128) zeros0]
  obtain ⟨e0, e1, -, -, -, -⟩ := index0 t
  refine funext fun (y : S10000x128.Idx) => ?_
  obtain ⟨r, q, rfl⟩ : ∃ (r : Fin 10000) (q : Fin 128), y = ix2 r q := ⟨y 0, y 1, eq_ix2 y⟩
  refine (pay0_entry _ _ r q).trans ?_
  rw [View.read_apply]
  refine prod_block0 V c t r q _ (iblk0 V c 0 t) (iblk0 V c 1 t) rfl rfl ?_ ?_
  · show win0_2.index t 0 * 10000 + 1 * r.val = _; rw [e0]; omega
  · show win0_2.index t 1 * 128 + 1 * q.val = _; rw [e1]; omega

/-! ## The cover: every row lies in the block of the point that is its number divided by the block's height -/

theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v27).slice (win0_2.rect t)).set ↔ _
  rw [View.set_slice_whole, Rect.mem_set_unit]
  exact Iff.rfl

theorem cover0 (i : S100000x128.Idx) :
    ∃ t : Fin cfg0.N, (cfg0.win 2).flush t = true ∧ i ∈ ((cfg0.win 2).blk t).view.set := by
  have hN : cfg0.N = 10 := N_0
  have h0 : (i 0).val < 100000 := (i 0).isLt
  have h1 : (i 1).val < 128 := (i 1).isLt
  have ht : (i 0).val / 10000 < cfg0.N := by rw [hN]; omega
  obtain ⟨e0, e1, -, -, -, -⟩ := index0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ 0 * 10000 ≤ (i 0).val
      ∧ (i 0).val < win0_2.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win0_2.index ⟨(i 0).val / 10000, ht⟩ 1 * 128 ≤ (i 1).val
      ∧ (i 1).val < win0_2.index ⟨(i 0).val / 10000, ht⟩ 1 * 128 + 128
    rw [e1]; omega

/-! ## The array after the region -/

/-- After region 0 the output array is the product of the activations and the weights as the region finds them. -/
theorem array0 (c : Dev nD) :
    (dat0 (F := Ideal) V c).arrAt 2 cfg0.N
      = Cert.Gcn.prod (V c (Pipeline.arrRef spec0 0)) (V c (Pipeline.arrRef spec0 1)) :=
  (dat0 (F := Ideal) V c).arrAt_eq_of_cover 2
    (Cert.Gcn.prod (a := 100000) (K := 128) (b := 128) (V c (Pipeline.arrRef spec0 0)) (V c (Pipeline.arrRef spec0 1)))
    (fun t _ => flushed0_eq V c t) cover0

end Cert.KernelIdeal.Regions

end
-- ==== Proof.RefProd.lean ====
/-
  The reference's first dense layer is the plain product: entry (r, q) of x · W is the sum over k of x (r, k) · W (k, q).
-/
import proofs.«148522_j1709396983810_1_alg».proof.Proof.Gen.ReferenceIdeal.Read
import proofs.«148522_j1709396983810_1_alg».proof.Proof.Spec

noncomputable section

namespace Cert.ReferenceIdeal.Layer0

open Cert.ReferenceIdeal Cert.ReferenceIdeal.Read Idealize.ShloMosaic Idealize.ShloMosaic.ValueIdx
open scoped BigOperators

theorem prod_eq (x0 : (⟨S100000x128, .f32⟩ : BufTy).Contents (Elt Ideal)) (x2 : (⟨S128x128, .f32⟩ : BufTy).Contents (Elt Ideal)) :
    Cert.Gcn.prod x0 x2 = val_main_v27 (F := Ideal) x0 x2 := by
  funext i
  obtain ⟨r, q, rfl⟩ : ∃ (r : Fin 100000) (q : Fin 128), i = ix2 r q := ⟨i 0, i 1, eq_ix2 i⟩
  rw [Cert.Gcn.prod_apply, val_main_v27_apply]
  refine Finset.sum_congr rfl fun k _ => ?_
  have el : lidx_main_v27 (ix2 r q) k = ix2 r k := funext fun a => Fin.ext (by match a with | ⟨0, _⟩ => rfl | ⟨1, _⟩ => rfl)
  have er : ridx_main_v27 (ix2 r q) k = ix2 k q := funext fun a => Fin.ext (by match a with | ⟨0, _⟩ => rfl | ⟨1, _⟩ => rfl)
  rw [el, er]

end Cert.ReferenceIdeal.Layer0

end
-- ==== Proof.Fold1.lean ====
/-
  The idealized kernel program's buffers up to the first product's exit.

  The first stretch of host operations builds, from the edge list alone, the source and destination index vectors and
  the symmetric normalisation weights; it writes none of the argument buffers.  The first region leaves its two
  inputs as they were and writes the plain product of the features with the first weight matrix; every other buffer
  is as the region found it.  The index vectors and the weights are the same operations of the edge list as the
  reference applies, so they are named by the reference's own stage functions.
-/
import proofs.«148522_j1709396983810_1_alg».proof.Proof.Gen.KernelIdeal.Frame
import proofs.«148522_j1709396983810_1_alg».proof.Proof.Gen.ReferenceIdeal.Read
import proofs.«148522_j1709396983810_1_alg».proof.Proof.Spec
import proofs.«148522_j1709396983810_1_alg».proof.Proof.RefProd
import Idealize.ShloMosaic.Lib.StableHlo.Run

set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region's output array is the plain product of its two input arrays, whatever the entry contents. -/
abbrev ProdArray : Prop :=
  ∀ (V : (c : Dev nD) → (b : Ref sig .tc) → Buf (Elt Ideal) ((c : Thread nD τ).loc b)) (c : Dev nD),
    (dat0 (F := Ideal) V c).arrAt 2 cfg0.N
      = Cert.Gcn.prod (a := 100000) (K := 128) (b := 128) (V c (Pipeline.arrRef spec0 0)) (V c (Pipeline.arrRef spec0 1))

/-! ## After the first stretch: the arguments as launched, the index vectors and the weights -/

theorem W1_a0 (c : Dev nD) : W1 m ρ c (Proc.devRef .tc main_arg0) = m ((c.tc : Thread nD τ).loc main_arg0) := by
  show StableHlo.after hostOps0 (W0 m ρ c) (Proc.devRef .tc main_arg0) = _
  after_results_simp
theorem W1_a2 (c : Dev nD) : W1 m ρ c (Proc.devRef .tc main_arg2) = m ((c.tc : Thread nD τ).loc main_arg2) := by
  show StableHlo.after hostOps0 (W0 m ρ c) (Proc.devRef .tc main_arg2) = _
  after_results_simp
theorem W1_a3 (c : Dev nD) : W1 m ρ c (Proc.devRef .tc main_arg3) = m ((c.tc : Thread nD τ).loc main_arg3) := by
  show StableHlo.after hostOps0 (W0 m ρ c) (Proc.devRef .tc main_arg3) = _
  after_results_simp
theorem W1_a4 (c : Dev nD) : W1 m ρ c (Proc.devRef .tc main_arg4) = m ((c.tc : Thread nD τ).loc main_arg4) := by
  show StableHlo.after hostOps0 (W0 m ρ c) (Proc.devRef .tc main_arg4) = _
  after_results_simp
theorem W1_a5 (c : Dev nD) : W1 m ρ c (Proc.devRef .tc main_arg5) = m ((c.tc : Thread nD τ).loc main_arg5) := by
  show StableHlo.after hostOps0 (W0 m ρ c) (Proc.devRef .tc main_arg5) = _
  after_results_simp
theorem W1_a6 (c : Dev nD) : W1 m ρ c (Proc.devRef .tc main_arg6) = m ((c.tc : Thread nD τ).loc main_arg6) := by
  show StableHlo.after hostOps0 (W0 m ρ c) (Proc.devRef .tc main_arg6) = _
  after_results_simp
theorem W1_a7 (c : Dev nD) : W1 m ρ c (Proc.devRef .tc main_arg7) = m ((c.tc : Thread nD τ).loc main_arg7) := by
  show StableHlo.after hostOps0 (W0 m ρ c) (Proc.devRef .tc main_arg7) = _
  after_results_simp
theorem W1_a8 (c : Dev nD) : W1 m ρ c (Proc.devRef .tc main_arg8) = m ((c.tc : Thread nD τ).loc main_arg8) := by
  show StableHlo.after hostOps0 (W0 m ρ c) (Proc.devRef .tc main_arg8) = _
  after_results_simp
theorem W1_a9 (c : Dev nD) : W1 m ρ c (Proc.devRef .tc main_arg9) = m ((c.tc : Thread nD τ).loc main_arg9) := by
  show StableHlo.after hostOps0 (W0 m ρ c) (Proc.devRef .tc main_arg9) = _
  after_results_simp
theorem W1_a10 (c : Dev nD) : W1 m ρ c (Proc.devRef .tc main_arg10) = m ((c.tc : Thread nD τ).loc main_arg10) := by
  show StableHlo.after hostOps0 (W0 m ρ c) (Proc.devRef .tc main_arg10) = _
  after_results_simp
theorem W1_a11 (c : Dev nD) : W1 m ρ c (Proc.devRef .tc main_arg11) = m ((c.tc : Thread nD τ).loc main_arg11) := by
  show StableHlo.after hostOps0 (W0 m ρ c) (Proc.devRef .tc main_arg11) = _
  after_results_simp
theorem W1_a12 (c : Dev nD) : W1 m ρ c (Proc.devRef .tc main_arg12) = m ((c.tc : Thread nD τ).loc main_arg12) := by
  show StableHlo.after hostOps0 (W0 m ρ c) (Proc.devRef .tc main_arg12) = _
  after_results_simp
theorem W1_a13 (c : Dev nD) : W1 m ρ c (Proc.devRef .tc main_arg13) = m ((c.tc : Thread nD τ).loc main_arg13) := by
  show StableHlo.after hostOps0 (W0 m ρ c) (Proc.devRef .tc main_arg13) = _
  after_results_simp
theorem W1_a14 (c : Dev nD) : W1 m ρ c (Proc.devRef .tc main_arg14) = m ((c.tc : Thread nD τ).loc main_arg14) := by
  show StableHlo.after hostOps0 (W0 m ρ c) (Proc.devRef .tc main_arg14) = _
  after_results_simp
theorem W1_a15 (c : Dev nD) : W1 m ρ c (Proc.devRef .tc main_arg15) = m ((c.tc : Thread nD τ).loc main_arg15) := by
  show StableHlo.after hostOps0 (W0 m ρ c) (Proc.devRef .tc main_arg15) = _
  after_results_simp

theorem W1_v3 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl
theorem W1_v6 (c : Dev nD) : W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results_simp
  rfl
theorem W1_v26 (c : Dev nD) : W1 m ρ c (Proc.devRef .tc main_v26) = Cert.ReferenceIdeal.Read.val_main_v26 (F := Ideal) (m ((c.tc : Thread nD τ).loc main_arg1)) := by
  show StableHlo.after hostOps0 (W0 m ρ c) (Proc.devRef .tc main_v26) = _
  after_results_simp
  rfl

/-! ## At the first region's exit -/

theorem W2_a3 (c : Dev nD) : W2 m ρ c (Proc.devRef .tc main_arg3) = m ((c.tc : Thread nD τ).loc main_arg3) :=
  (W2_of_ne m ρ c main_arg3 (by decide)).trans (W1_a3 m ρ c)
theorem W2_a4 (c : Dev nD) : W2 m ρ c (Proc.devRef .tc main_arg4) = m ((c.tc : Thread nD τ).loc main_arg4) :=
  (W2_of_ne m ρ c main_arg4 (by decide)).trans (W1_a4 m ρ c)
theorem W2_a5 (c : Dev nD) : W2 m ρ c (Proc.devRef .tc main_arg5) = m ((c.tc : Thread nD τ).loc main_arg5) :=
  (W2_of_ne m ρ c main_arg5 (by decide)).trans (W1_a5 m ρ c)
theorem W2_a6 (c : Dev nD) : W2 m ρ c (Proc.devRef .tc main_arg6) = m ((c.tc : Thread nD τ).loc main_arg6) :=
  (W2_of_ne m ρ c main_arg6 (by decide)).trans (W1_a6 m ρ c)
theorem W2_a7 (c : Dev nD) : W2 m ρ c (Proc.devRef .tc main_arg7) = m ((c.tc : Thread nD τ).loc main_arg7) :=
  (W2_of_ne m ρ c main_arg7 (by decide)).trans (W1_a7 m ρ c)
theorem W2_a8 (c : Dev nD) : W2 m ρ c (Proc.devRef .tc main_arg8) = m ((c.tc : Thread nD τ).loc main_arg8) :=
  (W2_of_ne m ρ c main_arg8 (by decide)).trans (W1_a8 m ρ c)
theorem W2_a9 (c : Dev nD) : W2 m ρ c (Proc.devRef .tc main_arg9) = m ((c.tc : Thread nD τ).loc main_arg9) :=
  (W2_of_ne m ρ c main_arg9 (by decide)).trans (W1_a9 m ρ c)
theorem W2_a10 (c : Dev nD) : W2 m ρ c (Proc.devRef .tc main_arg10) = m ((c.tc : Thread nD τ).loc main_arg10) :=
  (W2_of_ne m ρ c main_arg10 (by decide)).trans (W1_a10 m ρ c)
theorem W2_a11 (c : Dev nD) : W2 m ρ c (Proc.devRef .tc main_arg11) = m ((c.tc : Thread nD τ).loc main_arg11) :=
  (W2_of_ne m ρ c main_arg11 (by decide)).trans (W1_a11 m ρ c)
theorem W2_a12 (c : Dev nD) : W2 m ρ c (Proc.devRef .tc main_arg12) = m ((c.tc : Thread nD τ).loc main_arg12) :=
  (W2_of_ne m ρ c main_arg12 (by decide)).trans (W1_a12 m ρ c)
theorem W2_a13 (c : Dev nD) : W2 m ρ c (Proc.devRef .tc main_arg13) = m ((c.tc : Thread nD τ).loc main_arg13) :=
  (W2_of_ne m ρ c main_arg13 (by decide)).trans (W1_a13 m ρ c)
theorem W2_a14 (c : Dev nD) : W2 m ρ c (Proc.devRef .tc main_arg14) = m ((c.tc : Thread nD τ).loc main_arg14) :=
  (W2_of_ne m ρ c main_arg14 (by decide)).trans (W1_a14 m ρ c)
theorem W2_a15 (c : Dev nD) : W2 m ρ c (Proc.devRef .tc main_arg15) = m ((c.tc : Thread nD τ).loc main_arg15) :=
  (W2_of_ne m ρ c main_arg15 (by decide)).trans (W1_a15 m ρ c)
theorem W2_v3 (c : Dev nD) : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_v6 (c : Dev nD) : W2 m ρ c (Proc.devRef .tc main_v6) = Cert.ReferenceIdeal.Read.val_main_v6 (F := Ideal) (m ((c.tc : Thread nD τ).loc main_arg1)) :=
  (W2_of_ne m ρ c main_v6 (by decide)).trans (W1_v6 m ρ c)
theorem W2_v26 (c : Dev nD) : W2 m ρ c (Proc.devRef .tc main_v26) = Cert.ReferenceIdeal.Read.val_main_v26 (F := Ideal) (m ((c.tc : Thread nD τ).loc main_arg1)) :=
  (W2_of_ne m ρ c main_v26 (by decide)).trans (W1_v26 m ρ c)

/-- The first region's output: the reference's first dense layer of the same two arguments. -/
theorem W2_v27 (hA0 : ProdArray) (c : Dev nD) :
    W2 m ρ c (Proc.devRef .tc main_v27) = Cert.ReferenceIdeal.Read.val_main_v27 (F := Ideal) (m ((c.tc : Thread nD τ).loc main_arg0)) (m ((c.tc : Thread nD τ).loc main_arg2)) := by
  refine (W2_arr m ρ c 2).trans ?_
  rw [hA0 (V1 m ρ) c]
  show Cert.Gcn.prod (a := 100000) (K := 128) (b := 128) (W1 m ρ c (Proc.devRef .tc main_arg0)) (W1 m ρ c (Proc.devRef .tc main_arg2)) = _
  rw [W1_a0, W1_a2]
  exact Cert.ReferenceIdeal.Layer0.prod_eq _ _

end Cert.KernelIdeal.Whole

end
-- ==== Proof.Region1.lean ====
import proofs.«148522_j1709396983810_1_alg».proof.Proof.Gen.KernelIdeal.Frame
import proofs.«148522_j1709396983810_1_alg».proof.Proof.Spec
import proofs.«148522_j1709396983810_1_alg».proof.Proof.LibRowOps
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The product's record: which operand coordinate is the output's, which the contraction's -/

theorem dot1_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem dot1_lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem dot1_rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem dot1_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's payload at an entry -/

/-- Entry (r, q) of what the body stores: the sum over k of the normalised, cut-off entry (r, k) of the row block times
    the weights' (k, q).  The parameters are single rows read at column k; the casts to the same shape and the roundings
    to the narrower format are the identity on the extended reals. -/
theorem pay1_entry (x0 : Vec Ideal S10000x128 .f32) (g va mub be : Vec Ideal S1x128 .f32) (w : Vec Ideal S128x128 .f32)
    (r : Fin 10000) (q : Fin 128) :
    k1_pay1 (F := Ideal) x0 g va mub be w (ix2 r q)
      = ∑ k : Fin 128, Cert.Gcn.actFolded (x0 (ix2 r k)) (g (ix2 (0 : Fin 1) k)) (be (ix2 (0 : Fin 1) k))
          (mub (ix2 (0 : Fin 1) k)) (va (ix2 (0 : Fin 1) k)) * w (ix2 k q) := by
  unfold k1_pay1
  refine (Cert.RowOps.matmul_zero_entry dot_S10000x128_S128x128_S10000x128_1_0_0_1_n_n rfl rfl
    dot1_lhs_row dot1_lhs_contr dot1_rhs_contr dot1_rhs_col none _ _ r q).trans ?_
  refine Finset.sum_congr rfl fun k _ => ?_
  refine congrArg (· * w (ix2 k q)) ?_
  simp only [shapeCast_self, truncf_apply, maximumf_apply, addf_apply, mulf_apply, subf_apply, broadcast_apply,
    broadcastTo_1b_ab_apply]
  rfl

/-! ## Blocks: where each window's block sits in its array -/

theorem zeros1 : (![0, 0] : Fin 2 → Nat) = fun _ => 0 := funext fun a => by fin_cases a <;> rfl

/-- The printed index maps, decided over the grid: the output window and the row window sit, on the row axis, at the
    point's own number; every column block, every parameter window and the weight window stay at zero. -/
theorem index1_6 : ∀ t : Fin cfg1.N, win1_6.index t (0 : Fin 2) = t.val ∧ win1_6.index t (1 : Fin 2) = 0 :=
  (by decide +kernel : ∀ t : Fin grid1.N, _)

theorem index1_0 : ∀ t : Fin cfg1.N, win1_0.index t (0 : Fin 2) = t.val ∧ win1_0.index t (1 : Fin 2) = 0 :=
  (by decide +kernel : ∀ t : Fin grid1.N, _)

theorem index1_1 : ∀ t : Fin cfg1.N, win1_1.index t (0 : Fin 2) = 0 ∧ win1_1.index t (1 : Fin 2) = 0 :=
  (by decide +kernel : ∀ t : Fin grid1.N, _)

theorem index1_2 : ∀ t : Fin cfg1.N, win1_2.index t (0 : Fin 2) = 0 ∧ win1_2.index t (1 : Fin 2) = 0 :=
  (by decide +kernel : ∀ t : Fin grid1.N, _)

theorem index1_3 : ∀ t : Fin cfg1.N, win1_3.index t (0 : Fin 2) = 0 ∧ win1_3.index t (1 : Fin 2) = 0 :=
  (by decide +kernel : ∀ t : Fin grid1.N, _)

theorem index1_4 : ∀ t : Fin cfg1.N, win1_4.index t (0 : Fin 2) = 0 ∧ win1_4.index t (1 : Fin 2) = 0 :=
  (by decide +kernel : ∀ t : Fin grid1.N, _)

theorem index1_5 : ∀ t : Fin cfg1.N, win1_5.index t (0 : Fin 2) = 0 ∧ win1_5.index t (1 : Fin 2) = 0 :=
  (by decide +kernel : ∀ t : Fin grid1.N, _)

variable (V : (c : Dev nD) → (b : Ref sig .tc) → Buf (Elt Ideal) ((c : Thread nD τ).loc b))

/-- The row window's block at point `t`, entry (r, k), is the array's entry (10000 t + r, k). -/
theorem rows1_read (c : Dev nD) (t : Fin cfg1.N) (r : Fin 10000) (k : Fin 128) (i : S100000x128.Idx)
    (hi0 : (i 0).val = t.val * 10000 + r.val) (hi1 : (i 1).val = k.val) :
    (iblk1 (F := Ideal) V c 0 t : Vec Ideal S10000x128 .f32) (ix2 r k)
      = (V c (Pipeline.arrRef spec1 0) : S100000x128.Idx → EReal) i := by
  obtain ⟨e0, e1⟩ := index1_0 t
  unfold iblk1
  rw [View.read_apply]
  show (V c (Pipeline.arrRef spec1 0) : S100000x128.Idx → EReal) _ = _
  congr 1
  funext a
  apply Fin.ext
  match a with
  | ⟨0, _⟩ => show win1_0.index t 0 * 10000 + 1 * r.val = (i 0).val; rw [e0, hi0]; omega
  | ⟨1, _⟩ => show win1_0.index t 1 * 128 + 1 * k.val = (i 1).val; rw [e1, hi1]; omega

/-- The scale window's block at any point is the whole one-row array. -/
theorem par1_1_read (c : Dev nD) (t : Fin cfg1.N) (u : Fin 1) (k : Fin 128) :
    (iblk1 (F := Ideal) V c 1 t : Vec Ideal S1x128 .f32) (ix2 u k)
      = (V c (Pipeline.arrRef spec1 1) : S1x128.Idx → EReal) (ix2 u k) := by
  obtain ⟨e0, e1⟩ := index1_1 t
  unfold iblk1
  rw [View.read_apply]
  show (V c (Pipeline.arrRef spec1 1) : S1x128.Idx → EReal) _ = _
  congr 1
  funext a
  apply Fin.ext
  match a with
  | ⟨0, _⟩ => show win1_1.index t 0 * 1 + 1 * u.val = u.val; rw [e0]; omega
  | ⟨1, _⟩ => show win1_1.index t 1 * 128 + 1 * k.val = k.val; rw [e1]; omega

/-- The shift window's block at any point is the whole one-row array. -/
theorem par1_2_read (c : Dev nD) (t : Fin cfg1.N) (u : Fin 1) (k : Fin 128) :
    (iblk1 (F := Ideal) V c 2 t : Vec Ideal S1x128 .f32) (ix2 u k)
      = (V c (Pipeline.arrRef spec1 2) : S1x128.Idx → EReal) (ix2 u k) := by
  obtain ⟨e0, e1⟩ := index1_2 t
  unfold iblk1
  rw [View.read_apply]
  show (V c (Pipeline.arrRef spec1 2) : S1x128.Idx → EReal) _ = _
  congr 1
  funext a
  apply Fin.ext
  match a with
  | ⟨0, _⟩ => show win1_2.index t 0 * 1 + 1 * u.val = u.val; rw [e0]; omega
  | ⟨1, _⟩ => show win1_2.index t 1 * 128 + 1 * k.val = k.val; rw [e1]; omega

/-- The mean window's block at any point is the whole one-row array. -/
theorem par1_3_read (c : Dev nD) (t : Fin cfg1.N) (u : Fin 1) (k : Fin 128) :
    (iblk1 (F := Ideal) V c 3 t : Vec Ideal S1x128 .f32) (ix2 u k)
      = (V c (Pipeline.arrRef spec1 3) : S1x128.Idx → EReal) (ix2 u k) := by
  obtain ⟨e0, e1⟩ := index1_3 t
  unfold iblk1
  rw [View.read_apply]
  show (V c (Pipeline.arrRef spec1 3) : S1x128.Idx → EReal) _ = _
  congr 1
  funext a
  apply Fin.ext
  match a with
  | ⟨0, _⟩ => show win1_3.index t 0 * 1 + 1 * u.val = u.val; rw [e0]; omega
  | ⟨1, _⟩ => show win1_3.index t 1 * 128 + 1 * k.val = k.val; rw [e1]; omega

/-- The variance window's block at any point is the whole one-row array. -/
theorem par1_4_read (c : Dev nD) (t : Fin cfg1.N) (u : Fin 1) (k : Fin 128) :
    (iblk1 (F := Ideal) V c 4 t : Vec Ideal S1x128 .f32) (ix2 u k)
      = (V c (Pipeline.arrRef spec1 4) : S1x128.Idx → EReal) (ix2 u k) := by
  obtain ⟨e0, e1⟩ := index1_4 t
  unfold iblk1
  rw [View.read_apply]
  show (V c (Pipeline.arrRef spec1 4) : S1x128.Idx → EReal) _ = _
  congr 1
  funext a
  apply Fin.ext
  match a with
  | ⟨0, _⟩ => show win1_4.index t 0 * 1 + 1 * u.val = u.val; rw [e0]; omega
  | ⟨1, _⟩ => show win1_4.index t 1 * 128 + 1 * k.val = k.val; rw [e1]; omega

/-- The weight window's block at any point is the whole weight array. -/
theorem weights1_read (c : Dev nD) (t : Fin cfg1.N) (k : Fin 128) (q : Fin 128) (i : S128x128.Idx)
    (hi0 : (i 0).val = k.val) (hi1 : (i 1).val = q.val) :
    (iblk1 (F := Ideal) V c 5 t : Vec Ideal S128x128 .f32) (ix2 k q)
      = (V c (Pipeline.arrRef spec1 5) : S128x128.Idx → EReal) i := by
  obtain ⟨e0, e1⟩ := index1_5 t
  unfold iblk1
  rw [View.read_apply]
  show (V c (Pipeline.arrRef spec1 5) : S128x128.Idx → EReal) _ = _
  congr 1
  funext a
  apply Fin.ext
  match a with
  | ⟨0, _⟩ => show win1_5.index t 0 * 128 + 1 * k.val = (i 0).val; rw [e0, hi0]; omega
  | ⟨1, _⟩ => show win1_5.index t 1 * 128 + 1 * q.val = (i 1).val; rw [e1, hi1]; omega

/-- The layer of the blocks at point `t`, at (r, q), is the layer of the arrays at (10000 t + r, q). -/
theorem layer_block1 (c : Dev nD) (t : Fin cfg1.N) (r : Fin 10000) (q : Fin 128) (i : S100000x128.Idx)
    (x0 : Vec Ideal S10000x128 .f32) (p1 p2 p3 p4 : Vec Ideal S1x128 .f32) (w : Vec Ideal S128x128 .f32)
    (h0 : x0 = iblk1 (F := Ideal) V c 0 t) (h1 : p1 = iblk1 (F := Ideal) V c 1 t)
    (h2 : p2 = iblk1 (F := Ideal) V c 2 t) (h3 : p3 = iblk1 (F := Ideal) V c 3 t)
    (h4 : p4 = iblk1 (F := Ideal) V c 4 t) (h5 : w = iblk1 (F := Ideal) V c 5 t)
    (hi0 : (i 0).val = t.val * 10000 + r.val) (hi1 : (i 1).val = q.val) :
    ∑ k : Fin 128, Cert.Gcn.actFolded (x0 (ix2 r k)) (p1 (ix2 (0 : Fin 1) k)) (p2 (ix2 (0 : Fin 1) k))
        (p3 (ix2 (0 : Fin 1) k)) (p4 (ix2 (0 : Fin 1) k)) * w (ix2 k q)
      = (Cert.Gcn.layerFolded (a := 100000) (K := 128) (b := 128) (V c (Pipeline.arrRef spec1 0)) (V c (Pipeline.arrRef spec1 1))
        (V c (Pipeline.arrRef spec1 2)) (V c (Pipeline.arrRef spec1 3)) (V c (Pipeline.arrRef spec1 4)) (V c (Pipeline.arrRef spec1 5))) i := by
  subst h0 h1 h2 h3 h4 h5
  unfold Cert.Gcn.layerFolded
  refine Finset.sum_congr rfl fun k _ => ?_
  rw [rows1_read V c t r k (ix2 ⟨(i 0).val, idx2_lt0 i⟩ k) hi0 rfl,
    par1_1_read V c t 0 k, par1_2_read V c t 0 k, par1_3_read V c t 0 k, par1_4_read V c t 0 k,
    weights1_read V c t k q (ix2 k ⟨(i 1).val, idx2_lt1 i⟩) rfl hi1]

/-- What point `t` writes back is block `t` of the layer of the arrays as the region finds them. -/
theorem flushed1_eq (c : Dev nD) (t : Fin cfg1.N) :
    (dat1 (F := Ideal) V c).flushed 6 t = ((cfg1.win 6).blk t).view.read (Elt Ideal)
      (Cert.Gcn.layerFolded (a := 100000) (K := 128) (b := 128) (V c (Pipeline.arrRef spec1 0)) (V c (Pipeline.arrRef spec1 1))
        (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero zeros1]
  simp only [View.ld_unit_zero (S := S10000x128) zeros1, View.ld_unit_zero (S := S1x128) zeros1,
    View.ld_unit_zero (S := S128x128) zeros1]
  obtain ⟨e0, e1⟩ := index1_6 t
  refine funext fun (y : S10000x128.Idx) => ?_
  obtain ⟨r, q, rfl⟩ : ∃ (r : Fin 10000) (q : Fin 128), y = ix2 r q := ⟨y 0, y 1, eq_ix2 y⟩
  refine (pay1_entry _ _ _ _ _ _ r q).trans ?_
  rw [View.read_apply]
  refine layer_block1 V c t r q _ (iblk1 V c 0 t) (iblk1 V c 1 t) (iblk1 V c 2 t) (iblk1 V c 3 t)
    (iblk1 V c 4 t) (iblk1 V c 5 t) rfl rfl rfl rfl rfl rfl ?_ ?_
  · show win1_6.index t 0 * 10000 + 1 * r.val = _; rw [e0]; omega
  · show win1_6.index t 1 * 128 + 1 * q.val = _; rw [e1]; omega

/-! ## The cover: every row lies in the block of the point that is its number divided by the block's height -/

theorem mem_blk1 (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v46).slice (win1_6.rect t)).set ↔ _
  rw [View.set_slice_whole, Rect.mem_set_unit]
  exact Iff.rfl

theorem cover1 (i : S100000x128.Idx) :
    ∃ t : Fin cfg1.N, (cfg1.win 6).flush t = true ∧ i ∈ ((cfg1.win 6).blk t).view.set := by
  have hN : cfg1.N = 10 := N_1
  have h0 : (i 0).val < 100000 := (i 0).isLt
  have h1 : (i 1).val < 128 := (i 1).isLt
  have ht : (i 0).val / 10000 < cfg1.N := by rw [hN]; omega
  obtain ⟨e0, e1⟩ := index1_6 ⟨(i 0).val / 10000, ht⟩
  refine ⟨⟨(i 0).val / 10000, ht⟩, flush1_6 _, ?_⟩
  rw [mem_blk1]
  intro a
  match a with
  | ⟨0, _⟩ =>
    show win1_6.index ⟨(i 0).val / 10000, ht⟩ 0 * 10000 ≤ (i 0).val
      ∧ (i 0).val < win1_6.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win1_6.index ⟨(i 0).val / 10000, ht⟩ 1 * 128 ≤ (i 1).val
      ∧ (i 1).val < win1_6.index ⟨(i 0).val / 10000, ht⟩ 1 * 128 + 128
    rw [e1]; omega

/-! ## The array after the region -/

/-- After region 1 the output array is the normalised layer of the activations, the four parameter rows and the
    weights as the region finds them. -/
theorem array1 (c : Dev nD) :
    (dat1 (F := Ideal) V c).arrAt 6 cfg1.N
      = Cert.Gcn.layerFolded (V c (Pipeline.arrRef spec1 0)) (V c (Pipeline.arrRef spec1 1))
          (V c (Pipeline.arrRef spec1 2)) (V c (Pipeline.arrRef spec1 3))
          (V c (Pipeline.arrRef spec1 4)) (V c (Pipeline.arrRef spec1 5)) :=
  (dat1 (F := Ideal) V c).arrAt_eq_of_cover 6
    (Cert.Gcn.layerFolded (a := 100000) (K := 128) (b := 128) (V c (Pipeline.arrRef spec1 0)) (V c (Pipeline.arrRef spec1 1))
        (V c (Pipeline.arrRef spec1 2)) (V c (Pipeline.arrRef spec1 3)) (V c (Pipeline.arrRef spec1 4)) (V c (Pipeline.arrRef spec1 5)))
    (fun t _ => flushed1_eq V c t) cover1

end Cert.KernelIdeal.Regions

end
-- ==== Proof.Region2.lean ====
import proofs.«148522_j1709396983810_1_alg».proof.Proof.Gen.KernelIdeal.Frame
import proofs.«148522_j1709396983810_1_alg».proof.Proof.Spec
import proofs.«148522_j1709396983810_1_alg».proof.Proof.LibRowOps
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The product's record: which operand coordinate is the output's, which the contraction's -/

theorem dot2_lhs_row (i : S10000x2.Idx) (q : dot_S10000x128_S128x2_S10000x2_1_0_0_1_n_n.contr.Idx) :
    (dot_S10000x128_S128x2_S10000x2_1_0_0_1_n_n.lhsIdx i q 0).val = (i 0).val := by
  unfold DotDims.lhsIdx
  rw [dif_neg (show ¬(0 : Fin S10000x128.rank) ∈ dot_S10000x128_S128x2_S10000x2_1_0_0_1_n_n.lhsBatch by decide), dif_pos (show (0 : Fin S10000x128.rank) ∈ dot_S10000x128_S128x2_S10000x2_1_0_0_1_n_n.lhsNonContracting by decide)]
  rfl

theorem dot2_lhs_contr (i : S10000x2.Idx) (q : dot_S10000x128_S128x2_S10000x2_1_0_0_1_n_n.contr.Idx) :
    (dot_S10000x128_S128x2_S10000x2_1_0_0_1_n_n.lhsIdx i q 1).val = (q ⟨0, by decide⟩).val :=
  dot_S10000x128_S128x2_S10000x2_1_0_0_1_n_n.lhsIdx_val_of_single rfl i q

theorem dot2_rhs_contr (i : S10000x2.Idx) (q : dot_S10000x128_S128x2_S10000x2_1_0_0_1_n_n.contr.Idx) :
    (dot_S10000x128_S128x2_S10000x2_1_0_0_1_n_n.rhsIdx i q 0).val = (q ⟨0, by decide⟩).val :=
  dot_S10000x128_S128x2_S10000x2_1_0_0_1_n_n.rhsIdx_val_of_single rfl i q

theorem dot2_rhs_col (i : S10000x2.Idx) (q : dot_S10000x128_S128x2_S10000x2_1_0_0_1_n_n.contr.Idx) :
    (dot_S10000x128_S128x2_S10000x2_1_0_0_1_n_n.rhsIdx i q 1).val = (i 1).val := by
  unfold DotDims.rhsIdx
  rw [dif_neg (show ¬(1 : Fin S128x2.rank) ∈ dot_S10000x128_S128x2_S10000x2_1_0_0_1_n_n.rhsBatch by decide), dif_pos (show (1 : Fin S128x2.rank) ∈ dot_S10000x128_S128x2_S10000x2_1_0_0_1_n_n.rhsNonContracting by decide)]
  rfl

/-! ## The body's payload at an entry -/

/-- Entry (r, q) of what the body stores: the sum over k of the normalised, cut-off entry (r, k) of the row block times
    the weights' (k, q).  The parameters are single rows read at column k; the casts to the same shape and the roundings
    to the narrower format are the identity on the extended reals. -/
theorem pay2_entry (x0 : Vec Ideal S10000x128 .f32) (g va mub be : Vec Ideal S1x128 .f32) (w : Vec Ideal S128x2 .f32)
    (r : Fin 10000) (q : Fin 2) :
    k2_pay1 (F := Ideal) x0 g va mub be w (ix2 r q)
      = ∑ k : Fin 128, Cert.Gcn.actFolded (x0 (ix2 r k)) (g (ix2 (0 : Fin 1) k)) (be (ix2 (0 : Fin 1) k))
          (mub (ix2 (0 : Fin 1) k)) (va (ix2 (0 : Fin 1) k)) * w (ix2 k q) := by
  unfold k2_pay1
  refine (Cert.RowOps.matmul_zero_entry dot_S10000x128_S128x2_S10000x2_1_0_0_1_n_n rfl rfl
    dot2_lhs_row dot2_lhs_contr dot2_rhs_contr dot2_rhs_col none _ _ r q).trans ?_
  refine Finset.sum_congr rfl fun k _ => ?_
  refine congrArg (· * w (ix2 k q)) ?_
  simp only [shapeCast_self, truncf_apply, maximumf_apply, addf_apply, mulf_apply, subf_apply, broadcast_apply,
    broadcastTo_1b_ab_apply]
  rfl

/-! ## Blocks: where each window's block sits in its array -/

theorem zeros2 : (![0, 0] : Fin 2 → Nat) = fun _ => 0 := funext fun a => by fin_cases a <;> rfl

/-- The printed index maps, decided over the grid: the output window and the row window sit, on the row axis, at the
    point's own number; every column block, every parameter window and the weight window stay at zero. -/
theorem index2_6 : ∀ t : Fin cfg2.N, win2_6.index t (0 : Fin 2) = t.val ∧ win2_6.index t (1 : Fin 2) = 0 :=
  (by decide +kernel : ∀ t : Fin grid2.N, _)

theorem index2_0 : ∀ t : Fin cfg2.N, win2_0.index t (0 : Fin 2) = t.val ∧ win2_0.index t (1 : Fin 2) = 0 :=
  (by decide +kernel : ∀ t : Fin grid2.N, _)

theorem index2_1 : ∀ t : Fin cfg2.N, win2_1.index t (0 : Fin 2) = 0 ∧ win2_1.index t (1 : Fin 2) = 0 :=
  (by decide +kernel : ∀ t : Fin grid2.N, _)

theorem index2_2 : ∀ t : Fin cfg2.N, win2_2.index t (0 : Fin 2) = 0 ∧ win2_2.index t (1 : Fin 2) = 0 :=
  (by decide +kernel : ∀ t : Fin grid2.N, _)

theorem index2_3 : ∀ t : Fin cfg2.N, win2_3.index t (0 : Fin 2) = 0 ∧ win2_3.index t (1 : Fin 2) = 0 :=
  (by decide +kernel : ∀ t : Fin grid2.N, _)

theorem index2_4 : ∀ t : Fin cfg2.N, win2_4.index t (0 : Fin 2) = 0 ∧ win2_4.index t (1 : Fin 2) = 0 :=
  (by decide +kernel : ∀ t : Fin grid2.N, _)

theorem index2_5 : ∀ t : Fin cfg2.N, win2_5.index t (0 : Fin 2) = 0 ∧ win2_5.index t (1 : Fin 2) = 0 :=
  (by decide +kernel : ∀ t : Fin grid2.N, _)

variable (V : (c : Dev nD) → (b : Ref sig .tc) → Buf (Elt Ideal) ((c : Thread nD τ).loc b))

/-- The row window's block at point `t`, entry (r, k), is the array's entry (10000 t + r, k). -/
theorem rows2_read (c : Dev nD) (t : Fin cfg2.N) (r : Fin 10000) (k : Fin 128) (i : S100000x128.Idx)
    (hi0 : (i 0).val = t.val * 10000 + r.val) (hi1 : (i 1).val = k.val) :
    (iblk2 (F := Ideal) V c 0 t : Vec Ideal S10000x128 .f32) (ix2 r k)
      = (V c (Pipeline.arrRef spec2 0) : S100000x128.Idx → EReal) i := by
  obtain ⟨e0, e1⟩ := index2_0 t
  unfold iblk2
  rw [View.read_apply]
  show (V c (Pipeline.arrRef spec2 0) : S100000x128.Idx → EReal) _ = _
  congr 1
  funext a
  apply Fin.ext
  match a with
  | ⟨0, _⟩ => show win2_0.index t 0 * 10000 + 1 * r.val = (i 0).val; rw [e0, hi0]; omega
  | ⟨1, _⟩ => show win2_0.index t 1 * 128 + 1 * k.val = (i 1).val; rw [e1, hi1]; omega

/-- The scale window's block at any point is the whole one-row array. -/
theorem par2_1_read (c : Dev nD) (t : Fin cfg2.N) (u : Fin 1) (k : Fin 128) :
    (iblk2 (F := Ideal) V c 1 t : Vec Ideal S1x128 .f32) (ix2 u k)
      = (V c (Pipeline.arrRef spec2 1) : S1x128.Idx → EReal) (ix2 u k) := by
  obtain ⟨e0, e1⟩ := index2_1 t
  unfold iblk2
  rw [View.read_apply]
  show (V c (Pipeline.arrRef spec2 1) : S1x128.Idx → EReal) _ = _
  congr 1
  funext a
  apply Fin.ext
  match a with
  | ⟨0, _⟩ => show win2_1.index t 0 * 1 + 1 * u.val = u.val; rw [e0]; omega
  | ⟨1, _⟩ => show win2_1.index t 1 * 128 + 1 * k.val = k.val; rw [e1]; omega

/-- The shift window's block at any point is the whole one-row array. -/
theorem par2_2_read (c : Dev nD) (t : Fin cfg2.N) (u : Fin 1) (k : Fin 128) :
    (iblk2 (F := Ideal) V c 2 t : Vec Ideal S1x128 .f32) (ix2 u k)
      = (V c (Pipeline.arrRef spec2 2) : S1x128.Idx → EReal) (ix2 u k) := by
  obtain ⟨e0, e1⟩ := index2_2 t
  unfold iblk2
  rw [View.read_apply]
  show (V c (Pipeline.arrRef spec2 2) : S1x128.Idx → EReal) _ = _
  congr 1
  funext a
  apply Fin.ext
  match a with
  | ⟨0, _⟩ => show win2_2.index t 0 * 1 + 1 * u.val = u.val; rw [e0]; omega
  | ⟨1, _⟩ => show win2_2.index t 1 * 128 + 1 * k.val = k.val; rw [e1]; omega

/-- The mean window's block at any point is the whole one-row array. -/
theorem par2_3_read (c : Dev nD) (t : Fin cfg2.N) (u : Fin 1) (k : Fin 128) :
    (iblk2 (F := Ideal) V c 3 t : Vec Ideal S1x128 .f32) (ix2 u k)
      = (V c (Pipeline.arrRef spec2 3) : S1x128.Idx → EReal) (ix2 u k) := by
  obtain ⟨e0, e1⟩ := index2_3 t
  unfold iblk2
  rw [View.read_apply]
  show (V c (Pipeline.arrRef spec2 3) : S1x128.Idx → EReal) _ = _
  congr 1
  funext a
  apply Fin.ext
  match a with
  | ⟨0, _⟩ => show win2_3.index t 0 * 1 + 1 * u.val = u.val; rw [e0]; omega
  | ⟨1, _⟩ => show win2_3.index t 1 * 128 + 1 * k.val = k.val; rw [e1]; omega

/-- The variance window's block at any point is the whole one-row array. -/
theorem par2_4_read (c : Dev nD) (t : Fin cfg2.N) (u : Fin 1) (k : Fin 128) :
    (iblk2 (F := Ideal) V c 4 t : Vec Ideal S1x128 .f32) (ix2 u k)
      = (V c (Pipeline.arrRef spec2 4) : S1x128.Idx → EReal) (ix2 u k) := by
  obtain ⟨e0, e1⟩ := index2_4 t
  unfold iblk2
  rw [View.read_apply]
  show (V c (Pipeline.arrRef spec2 4) : S1x128.Idx → EReal) _ = _
  congr 1
  funext a
  apply Fin.ext
  match a with
  | ⟨0, _⟩ => show win2_4.index t 0 * 1 + 1 * u.val = u.val; rw [e0]; omega
  | ⟨1, _⟩ => show win2_4.index t 1 * 128 + 1 * k.val = k.val; rw [e1]; omega

/-- The weight window's block at any point is the whole weight array. -/
theorem weights2_read (c : Dev nD) (t : Fin cfg2.N) (k : Fin 128) (q : Fin 2) (i : S128x2.Idx)
    (hi0 : (i 0).val = k.val) (hi1 : (i 1).val = q.val) :
    (iblk2 (F := Ideal) V c 5 t : Vec Ideal S128x2 .f32) (ix2 k q)
      = (V c (Pipeline.arrRef spec2 5) : S128x2.Idx → EReal) i := by
  obtain ⟨e0, e1⟩ := index2_5 t
  unfold iblk2
  rw [View.read_apply]
  show (V c (Pipeline.arrRef spec2 5) : S128x2.Idx → EReal) _ = _
  congr 1
  funext a
  apply Fin.ext
  match a with
  | ⟨0, _⟩ => show win2_5.index t 0 * 128 + 1 * k.val = (i 0).val; rw [e0, hi0]; omega
  | ⟨1, _⟩ => show win2_5.index t 1 * 2 + 1 * q.val = (i 1).val; rw [e1, hi1]; omega

set_option maxHeartbeats 1600000 in
/-- The layer of the blocks at point `t`, at (r, q), is the layer of the arrays at (10000 t + r, q). -/
theorem layer_block2 (c : Dev nD) (t : Fin cfg2.N) (r : Fin 10000) (q : Fin 2) (i : S100000x2.Idx)
    (x0 : Vec Ideal S10000x128 .f32) (p1 p2 p3 p4 : Vec Ideal S1x128 .f32) (w : Vec Ideal S128x2 .f32)
    (h0 : x0 = iblk2 (F := Ideal) V c 0 t) (h1 : p1 = iblk2 (F := Ideal) V c 1 t)
    (h2 : p2 = iblk2 (F := Ideal) V c 2 t) (h3 : p3 = iblk2 (F := Ideal) V c 3 t)
    (h4 : p4 = iblk2 (F := Ideal) V c 4 t) (h5 : w = iblk2 (F := Ideal) V c 5 t)
    (hi0 : (i 0).val = t.val * 10000 + r.val) (hi1 : (i 1).val = q.val) :
    ∑ k : Fin 128, Cert.Gcn.actFolded (x0 (ix2 r k)) (p1 (ix2 (0 : Fin 1) k)) (p2 (ix2 (0 : Fin 1) k))
        (p3 (ix2 (0 : Fin 1) k)) (p4 (ix2 (0 : Fin 1) k)) * w (ix2 k q)
      = (Cert.Gcn.layerFolded (a := 100000) (K := 128) (b := 2) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))) i := by
  subst h0 h1 h2 h3 h4 h5
  unfold Cert.Gcn.layerFolded
  refine Finset.sum_congr rfl fun k _ => ?_
  rw [rows2_read V c t r k (ix2 ⟨(i 0).val, idx2_lt0 i⟩ k) hi0 rfl,
    par2_1_read V c t 0 k, par2_2_read V c t 0 k, par2_3_read V c t 0 k, par2_4_read V c t 0 k,
    weights2_read V c t k q (ix2 k ⟨(i 1).val, idx2_lt1 i⟩) rfl hi1]

set_option maxHeartbeats 1600000 in
/-- What point `t` writes back is block `t` of the layer of the arrays as the region finds them. -/
theorem flushed2_eq (c : Dev nD) (t : Fin cfg2.N) :
    (dat2 (F := Ideal) V c).flushed 6 t = ((cfg2.win 6).blk t).view.read (Elt Ideal)
      (Cert.Gcn.layerFolded (a := 100000) (K := 128) (b := 2) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero zeros2]
  simp only [View.ld_unit_zero (S := S10000x128) zeros2, View.ld_unit_zero (S := S1x128) zeros2,
    View.ld_unit_zero (S := S128x2) zeros2]
  obtain ⟨e0, e1⟩ := index2_6 t
  refine funext fun (y : S10000x2.Idx) => ?_
  obtain ⟨r, q, rfl⟩ : ∃ (r : Fin 10000) (q : Fin 2), y = ix2 r q := ⟨y 0, y 1, eq_ix2 y⟩
  refine (pay2_entry _ _ _ _ _ _ r q).trans ?_
  rw [View.read_apply]
  refine layer_block2 V c t r q _ (iblk2 V c 0 t) (iblk2 V c 1 t) (iblk2 V c 2 t) (iblk2 V c 3 t)
    (iblk2 V c 4 t) (iblk2 V c 5 t) rfl rfl rfl rfl rfl rfl ?_ ?_
  · show win2_6.index t 0 * 10000 + 1 * r.val = _; rw [e0]; omega
  · show win2_6.index t 1 * 2 + 1 * q.val = _; rw [e1]; omega

/-! ## The cover: every row lies in the block of the point that is its number divided by the block's height -/

theorem mem_blk2 (t : Fin cfg2.N) (i : S100000x2.Idx) :
    i ∈ ((cfg2.win 6).blk t).view.set ↔ ∀ a : Fin 2, win2_6.index t a * S10000x2.size a ≤ (i a).val
      ∧ (i a).val < win2_6.index t a * S10000x2.size a + S10000x2.size a := by
  show i ∈ ((View.whole main_v65).slice (win2_6.rect t)).set ↔ _
  rw [View.set_slice_whole, Rect.mem_set_unit]
  exact Iff.rfl

theorem cover2 (i : S100000x2.Idx) :
    ∃ t : Fin cfg2.N, (cfg2.win 6).flush t = true ∧ i ∈ ((cfg2.win 6).blk t).view.set := by
  have hN : cfg2.N = 10 := N_2
  have h0 : (i 0).val < 100000 := (i 0).isLt
  have h1 : (i 1).val < 2 := (i 1).isLt
  have ht : (i 0).val / 10000 < cfg2.N := by rw [hN]; omega
  obtain ⟨e0, e1⟩ := index2_6 ⟨(i 0).val / 10000, ht⟩
  refine ⟨⟨(i 0).val / 10000, ht⟩, flush2_6 _, ?_⟩
  rw [mem_blk2]
  intro a
  match a with
  | ⟨0, _⟩ =>
    show win2_6.index ⟨(i 0).val / 10000, ht⟩ 0 * 10000 ≤ (i 0).val
      ∧ (i 0).val < win2_6.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win2_6.index ⟨(i 0).val / 10000, ht⟩ 1 * 2 ≤ (i 1).val
      ∧ (i 1).val < win2_6.index ⟨(i 0).val / 10000, ht⟩ 1 * 2 + 2
    rw [e1]; omega

/-! ## The array after the region -/

/-- After region 2 the output array is the normalised layer of the activations, the four parameter rows and the
    weights as the region finds them. -/
theorem array2 (c : Dev nD) :
    (dat2 (F := Ideal) V c).arrAt 6 cfg2.N
      = Cert.Gcn.layerFolded (V c (Pipeline.arrRef spec2 0)) (V c (Pipeline.arrRef spec2 1))
          (V c (Pipeline.arrRef spec2 2)) (V c (Pipeline.arrRef spec2 3))
          (V c (Pipeline.arrRef spec2 4)) (V c (Pipeline.arrRef spec2 5)) :=
  (dat2 (F := Ideal) V c).arrAt_eq_of_cover 6
    (Cert.Gcn.layerFolded (a := 100000) (K := 128) (b := 2) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5)))
    (fun t _ => flushed2_eq V c t) cover2

end Cert.KernelIdeal.Regions

end
-- ==== Proof.Algebra.lean ====
/-
  The two arrangements of a normalised entry are one extended real.

  The variance offset is the positive dyadic rational 10995116 / 2^40.  For a variance v ≥ 0 the sum y = v + e is a
  positive real, so the reciprocal square root of y is the real (√y)⁻¹ and the square root of y is the nonzero real √y;
  a quotient by a nonzero real is the product with its reciprocal, hence g / √y = g · (√y)⁻¹ and the two scales agree.
  The two shifts agree because taking a finite number across a difference is harmless at the infinities:
  h - (mu - b) = h + b - mu for a real h by arithmetic, and at ⊥ and at ⊤ both sides are that infinity.
-/
import proofs.«148522_j1709396983810_1_alg».proof.Proof.Spec
import Idealize.ShloMosaic.PureOps.Ideal.Laws

noncomputable section

namespace Cert.Gcn

open Idealize.ShloMosaic

/-- The offset's word is a normal number: significand 2^23 + 2606508 = 10995116 at the exponent 110 - 127 - 23 = -40. -/
theorem eps_val : (eps : EReal) = ((10995116 * ((2 : ℝ) ^ 40)⁻¹ : ℝ) : EReal) := by
  simp [eps, Ideal.ofBits, Ideal.ieee]

/-- The offset is a positive real. -/
theorem eps_pos : ∃ e : ℝ, 0 < e ∧ (eps : EReal) = (e : EReal) :=
  ⟨10995116 * ((2 : ℝ) ^ 40)⁻¹, by positivity, eps_val⟩

/-- The cut-off level is zero. -/
theorem zero_eq : (zero : EReal) = 0 := Ideal.ofBits_zero_f32

/-- Moving a finite number across a difference: for every extended real h and reals mu, b. -/
theorem sub_sub_coe (h : EReal) (mu b : ℝ) :
    h - ((mu : EReal) - (b : EReal)) = h + (b : EReal) - (mu : EReal) := by
  induction h using EReal.rec with
  | bot => simp [← EReal.coe_sub]
  | coe x =>
    rw [← EReal.coe_sub, ← EReal.coe_sub, ← EReal.coe_add, ← EReal.coe_sub]
    congr 1
    ring
  | top => simp [← EReal.coe_sub]

/-- At a positive real the reciprocal square root is the reciprocal of the square root. -/
theorem rsqrt_of_pos {y : ℝ} (hy : 0 < y) : Ideal.rsqrt (y : EReal) = (((Real.sqrt y)⁻¹ : ℝ) : EReal) := by
  rw [Ideal.rsqrt_coe, if_neg (not_lt.mpr hy.le), if_neg hy.ne']

/-- At a positive real the square root is the real square root. -/
theorem sqrt_of_pos {y : ℝ} (hy : 0 < y) : Ideal.sqrt (y : EReal) = ((Real.sqrt y : ℝ) : EReal) := by
  rw [Ideal.sqrt_coe, if_neg (not_lt.mpr hy.le)]

/-- The quotient by the square root is the product with the reciprocal square root, at a positive real. -/
theorem div_sqrt_eq_mul_rsqrt (g : EReal) {y : ℝ} (hy : 0 < y) :
    Ideal.div g (Ideal.sqrt (y : EReal)) = g * Ideal.rsqrt (y : EReal) := by
  rw [rsqrt_of_pos hy, sqrt_of_pos hy, Ideal.div_coe (Real.sqrt_pos.mpr hy).ne', one_div]

/-- The folded arrangement, at the mean less the bias, is the plain arrangement. -/
theorem actFolded_eq_actPlain (h beta : EReal) (b g mu v : ℝ) (hv : 0 ≤ v) :
    actFolded h (g : EReal) beta ((mu : EReal) - (b : EReal)) (v : EReal)
      = actPlain h (b : EReal) (g : EReal) beta (mu : EReal) (v : EReal) := by
  obtain ⟨e, he, hE⟩ := eps_pos
  have hy : 0 < v + e := by linarith
  unfold actFolded actPlain
  rw [hE, ← EReal.coe_add, div_sqrt_eq_mul_rsqrt (g : EReal) hy, sub_sub_coe]

end Cert.Gcn

end
-- ==== Proof.RefLayer1.lean ====
/-
  The reference's normalised layer 1, read at an entry.

  Entry (r, k) of the rectified activations is the plain arrangement of the affine map applied to entry (r, k) of the
  aggregated features: the bias, scale, shift, mean and variance rows are broadcast along the rows, so each is read at
  its k-th entry.  The layer's product is then the sum over k of those entries against the weights, and under
  finiteness of the bias, scale and mean and a nonnegative finite variance it is the folded arrangement's sum, term
  by term.
-/
import proofs.«148522_j1709396983810_1_alg».proof.Proof.Gen.ReferenceIdeal.Read
import proofs.«148522_j1709396983810_1_alg».proof.Proof.Spec
import proofs.«148522_j1709396983810_1_alg».proof.Proof.Algebra

noncomputable section

namespace Cert.ReferenceIdeal.Layer1

open Cert.ReferenceIdeal Cert.ReferenceIdeal.Read Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal))

theorem row_idx0 (r : Fin 100000) (k : Fin 128) : idx_main_v41 (idx_main_v42 (ix2 r k)) = ix1 k :=
  funext fun a => Fin.ext (by match a with | ⟨0, _⟩ => rfl)
theorem row_idx1 (r : Fin 100000) (k : Fin 128) : idx_main_v48 (idx_main_v49 (ix2 r k)) = ix1 k :=
  funext fun a => Fin.ext (by match a with | ⟨0, _⟩ => rfl)
theorem row_idx2 (r : Fin 100000) (k : Fin 128) : idx_main_v51 (idx_main_v52 (ix2 r k)) = ix1 k :=
  funext fun a => Fin.ext (by match a with | ⟨0, _⟩ => rfl)
theorem row_idx3 (r : Fin 100000) (k : Fin 128) : idx_main_v54 (idx_main_v55 (ix2 r k)) = ix1 k :=
  funext fun a => Fin.ext (by match a with | ⟨0, _⟩ => rfl)

/-- Entry (r, k) of the rectified activations. -/
theorem act_entry (r : Fin 100000) (k : Fin 128) :
    val_main_v57 (F := Ideal) x0 x1 x2 x3 x4 x5 x6 x7 (ix2 r k)
      = Cert.Gcn.actPlain (val_main_v40 (F := Ideal) x0 x1 x2 (ix2 r k)) (x3 (ix1 k)) (x4 (ix1 k)) (x5 (ix1 k)) (x6 (ix1 k)) (x7 (ix1 k)) := by
  rw [val_main_v57_apply, val_main_v56_apply, val_main_v53_apply, val_main_v50_apply, val_main_v43_apply, val_main_v42_apply, val_main_v41_apply, val_main_v49_apply, val_main_v48_apply, val_main_v52_apply, val_main_v51_apply, val_main_v47_apply, val_main_v46_apply, val_main_v45_apply, val_main_v44_apply, val_main_cst_7_apply, val_main_v55_apply, val_main_v54_apply, val_main_call0_v0_apply, val_main_call0_cst_apply]
  rw [row_idx0, row_idx1, row_idx2, row_idx3]
  rfl

/-- The layer's product is the folded arrangement's, given the rows the folded arrangement is fed. -/
theorem layer_eq (h : S100000x128.Idx → EReal) (g be mub v : (⟨2, ![1, 128]⟩ : Shape).Idx → EReal)
    (hh : h = val_main_v40 (F := Ideal) x0 x1 x2)
    (hg : ∀ k : Fin 128, g (ix2 (0 : Fin 1) k) = x4 (ix1 k)) (hbe : ∀ k : Fin 128, be (ix2 (0 : Fin 1) k) = x5 (ix1 k))
    (hmub : ∀ k : Fin 128, mub (ix2 (0 : Fin 1) k) = x6 (ix1 k) - x3 (ix1 k)) (hv : ∀ k : Fin 128, v (ix2 (0 : Fin 1) k) = x7 (ix1 k))
    (hfin : ∀ k : Fin 128, (∃ r : ℝ, x3 (ix1 k) = (r : EReal)) ∧ (∃ r : ℝ, x4 (ix1 k) = (r : EReal)) ∧ (∃ r : ℝ, x6 (ix1 k) = (r : EReal))
      ∧ (∃ r : ℝ, 0 ≤ r ∧ x7 (ix1 k) = (r : EReal))) :
    Cert.Gcn.layerFolded h g be mub v x8 = val_main_v58 (F := Ideal) x0 x1 x2 x3 x4 x5 x6 x7 x8 := by
  subst hh
  funext i
  obtain ⟨r, q, rfl⟩ : ∃ (r : Fin 100000) (q : Fin 128), i = ix2 r q := ⟨i 0, i 1, eq_ix2 i⟩
  rw [Cert.Gcn.layerFolded_apply, val_main_v58_apply]
  refine Finset.sum_congr rfl fun k _ => ?_
  have el : lidx_main_v58 (ix2 r q) k = ix2 r k := funext fun a => Fin.ext (by match a with | ⟨0, _⟩ => rfl | ⟨1, _⟩ => rfl)
  have er : ridx_main_v58 (ix2 r q) k = ix2 k q := funext fun a => Fin.ext (by match a with | ⟨0, _⟩ => rfl | ⟨1, _⟩ => rfl)
  rw [el, er, act_entry, hg, hbe, hmub, hv]
  obtain ⟨⟨b, hb⟩, ⟨g', hg'⟩, ⟨mu, hmu⟩, ⟨vv, hv0, hvv⟩⟩ := hfin k
  rw [hb, hg', hmu, hvv, Cert.Gcn.actFolded_eq_actPlain _ _ b g' mu vv hv0]

end Cert.ReferenceIdeal.Layer1

end
-- ==== Proof.Fold2.lean ====
/-
  The idealized kernel program's buffers from the first product's exit to the first normalised layer's exit.

  The second stretch of host operations gathers the product's rows along the source indices, weights them, and adds
  them up along the destination indices: the same aggregation, with the same index vectors and weights, as the
  reference applies to its own first dense layer.  It also subtracts the first bias from the first mean and lays the
  four parameter vectors out as rows.  The second region then writes the folded arrangement's normalised layer of those
  arrays, which under finiteness of bias, scale and mean and a nonnegative finite variance is the reference's second
  dense layer of the same arguments.
-/
import proofs.«148522_j1709396983810_1_alg».proof.Proof.Fold1
import proofs.«148522_j1709396983810_1_alg».proof.Proof.RefLayer1
import Idealize.ShloMosaic.Lib.ValueLayout

set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The difference of two vectors at an entry (the mean less the bias). -/
abbrev rowSub (a b : S128.Idx → EReal) (k : Fin 128) : EReal := a (ix1 k) - b (ix1 k)

/-- The second region's output array is the folded arrangement's normalised layer of its six input arrays. -/
abbrev Layer1Array : Prop :=
  ∀ (V : (c : Dev nD) → (b : Ref sig .tc) → Buf (Elt Ideal) ((c : Thread nD τ).loc b)) (c : Dev nD),
    (dat1 (F := Ideal) V c).arrAt 6 cfg1.N
      = Cert.Gcn.layerFolded (a := 100000) (K := 128) (b := 128) (V c (Pipeline.arrRef spec1 0)) (V c (Pipeline.arrRef spec1 1))
          (V c (Pipeline.arrRef spec1 2)) (V c (Pipeline.arrRef spec1 3)) (V c (Pipeline.arrRef spec1 4)) (V c (Pipeline.arrRef spec1 5))

/-- What the precondition gives of the first layer's parameters: bias, scale and mean finite, variance finite and
    nonnegative, entry by entry. -/
abbrev Params1 (c : Dev nD) : Prop :=
  ∀ k : Fin 128, (∃ r : ℝ, (m ((c.tc : Thread nD τ).loc main_arg3)) (ix1 k) = (r : EReal)) ∧ (∃ r : ℝ, (m ((c.tc : Thread nD τ).loc main_arg4)) (ix1 k) = (r : EReal))
    ∧ (∃ r : ℝ, (m ((c.tc : Thread nD τ).loc main_arg6)) (ix1 k) = (r : EReal)) ∧ (∃ r : ℝ, 0 ≤ r ∧ (m ((c.tc : Thread nD τ).loc main_arg7)) (ix1 k) = (r : EReal))

/-! ## After the second stretch -/

theorem W3_a8 (c : Dev nD) : W3 m ρ c (Proc.devRef .tc main_arg8) = m ((c.tc : Thread nD τ).loc main_arg8) := by
  show StableHlo.after hostOps1 (W2 m ρ c) (Proc.devRef .tc main_arg8) = _
  after_results_simp
  exact W2_a8 m ρ c
theorem W3_a9 (c : Dev nD) : W3 m ρ c (Proc.devRef .tc main_arg9) = m ((c.tc : Thread nD τ).loc main_arg9) := by
  show StableHlo.after hostOps1 (W2 m ρ c) (Proc.devRef .tc main_arg9) = _
  after_results_simp
  exact W2_a9 m ρ c
theorem W3_a10 (c : Dev nD) : W3 m ρ c (Proc.devRef .tc main_arg10) = m ((c.tc : Thread nD τ).loc main_arg10) := by
  show StableHlo.after hostOps1 (W2 m ρ c) (Proc.devRef .tc main_arg10) = _
  after_results_simp
  exact W2_a10 m ρ c
theorem W3_a11 (c : Dev nD) : W3 m ρ c (Proc.devRef .tc main_arg11) = m ((c.tc : Thread nD τ).loc main_arg11) := by
  show StableHlo.after hostOps1 (W2 m ρ c) (Proc.devRef .tc main_arg11) = _
  after_results_simp
  exact W2_a11 m ρ c
theorem W3_a12 (c : Dev nD) : W3 m ρ c (Proc.devRef .tc main_arg12) = m ((c.tc : Thread nD τ).loc main_arg12) := by
  show StableHlo.after hostOps1 (W2 m ρ c) (Proc.devRef .tc main_arg12) = _
  after_results_simp
  exact W2_a12 m ρ c
theorem W3_a13 (c : Dev nD) : W3 m ρ c (Proc.devRef .tc main_arg13) = m ((c.tc : Thread nD τ).loc main_arg13) := by
  show StableHlo.after hostOps1 (W2 m ρ c) (Proc.devRef .tc main_arg13) = _
  after_results_simp
  exact W2_a13 m ρ c
theorem W3_a14 (c : Dev nD) : W3 m ρ c (Proc.devRef .tc main_arg14) = m ((c.tc : Thread nD τ).loc main_arg14) := by
  show StableHlo.after hostOps1 (W2 m ρ c) (Proc.devRef .tc main_arg14) = _
  after_results_simp
  exact W2_a14 m ρ c
theorem W3_a15 (c : Dev nD) : W3 m ρ c (Proc.devRef .tc main_arg15) = m ((c.tc : Thread nD τ).loc main_arg15) := by
  show StableHlo.after hostOps1 (W2 m ρ c) (Proc.devRef .tc main_arg15) = _
  after_results_simp
  exact W2_a15 m ρ c
theorem W3_v3 (c : Dev nD) : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results_simp
  exact W2_v3 m ρ c
theorem W3_v6 (c : Dev nD) : W3 m ρ c (Proc.devRef .tc main_v6) = Cert.ReferenceIdeal.Read.val_main_v6 (F := Ideal) (m ((c.tc : Thread nD τ).loc main_arg1)) := by
  show StableHlo.after hostOps1 (W2 m ρ c) (Proc.devRef .tc main_v6) = _
  after_results_simp
  exact W2_v6 m ρ c
theorem W3_v26 (c : Dev nD) : W3 m ρ c (Proc.devRef .tc main_v26) = Cert.ReferenceIdeal.Read.val_main_v26 (F := Ideal) (m ((c.tc : Thread nD τ).loc main_arg1)) := by
  show StableHlo.after hostOps1 (W2 m ρ c) (Proc.devRef .tc main_v26) = _
  after_results_simp
  exact W2_v26 m ρ c

/-- The aggregated first layer: the reference's aggregation of its first dense layer. -/
theorem W3_v40 (hA0 : ProdArray) (c : Dev nD) :
    W3 m ρ c (Proc.devRef .tc main_v40) = Cert.ReferenceIdeal.Read.val_main_v40 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v40) = _
  after_results_simp
  rw [W2_v6, W2_v27 m ρ hA0, W2_v3, W2_v26]
  rfl

/-- The scale, laid out as a row. -/
theorem W3_v42 (c : Dev nD) (k : Fin 128) :
    (W3 m ρ c (Proc.devRef .tc main_v42) : S1x128.Idx → EReal) (ix2 (0 : Fin 1) k) = (m ((c.tc : Thread nD τ).loc main_arg4)) (ix1 k) := by
  show (StableHlo.after hostOps1 (W2 m ρ c) (Proc.devRef .tc main_v42) : S1x128.Idx → EReal) (ix2 (0 : Fin 1) k) = _
  after_results_simp
  rw [W2_a4]
  exact shapeCast_a_1a_apply _ _ 0 k
/-- The shift, laid out as a row. -/
theorem W3_v43 (c : Dev nD) (k : Fin 128) :
    (W3 m ρ c (Proc.devRef .tc main_v43) : S1x128.Idx → EReal) (ix2 (0 : Fin 1) k) = (m ((c.tc : Thread nD τ).loc main_arg5)) (ix1 k) := by
  show (StableHlo.after hostOps1 (W2 m ρ c) (Proc.devRef .tc main_v43) : S1x128.Idx → EReal) (ix2 (0 : Fin 1) k) = _
  after_results_simp
  rw [W2_a5]
  exact shapeCast_a_1a_apply _ _ 0 k
/-- The mean less the bias, laid out as a row. -/
theorem W3_v44 (c : Dev nD) (k : Fin 128) :
    (W3 m ρ c (Proc.devRef .tc main_v44) : S1x128.Idx → EReal) (ix2 (0 : Fin 1) k) = rowSub (m ((c.tc : Thread nD τ).loc main_arg6)) (m ((c.tc : Thread nD τ).loc main_arg3)) k := by
  show (StableHlo.after hostOps1 (W2 m ρ c) (Proc.devRef .tc main_v44) : S1x128.Idx → EReal) (ix2 (0 : Fin 1) k) = _
  after_results_simp
  rw [W2_a6, W2_a3]
  exact shapeCast_a_1a_apply _ _ 0 k
/-- The variance, laid out as a row. -/
theorem W3_v45 (c : Dev nD) (k : Fin 128) :
    (W3 m ρ c (Proc.devRef .tc main_v45) : S1x128.Idx → EReal) (ix2 (0 : Fin 1) k) = (m ((c.tc : Thread nD τ).loc main_arg7)) (ix1 k) := by
  show (StableHlo.after hostOps1 (W2 m ρ c) (Proc.devRef .tc main_v45) : S1x128.Idx → EReal) (ix2 (0 : Fin 1) k) = _
  after_results_simp
  rw [W2_a7]
  exact shapeCast_a_1a_apply _ _ 0 k

/-! ## At the second region's exit -/

theorem W4_a9 (c : Dev nD) : W4 m ρ c (Proc.devRef .tc main_arg9) = m ((c.tc : Thread nD τ).loc main_arg9) :=
  (W4_of_ne m ρ c main_arg9 (by decide)).trans (W3_a9 m ρ c)
theorem W4_a10 (c : Dev nD) : W4 m ρ c (Proc.devRef .tc main_arg10) = m ((c.tc : Thread nD τ).loc main_arg10) :=
  (W4_of_ne m ρ c main_arg10 (by decide)).trans (W3_a10 m ρ c)
theorem W4_a11 (c : Dev nD) : W4 m ρ c (Proc.devRef .tc main_arg11) = m ((c.tc : Thread nD τ).loc main_arg11) :=
  (W4_of_ne m ρ c main_arg11 (by decide)).trans (W3_a11 m ρ c)
theorem W4_a12 (c : Dev nD) : W4 m ρ c (Proc.devRef .tc main_arg12) = m ((c.tc : Thread nD τ).loc main_arg12) :=
  (W4_of_ne m ρ c main_arg12 (by decide)).trans (W3_a12 m ρ c)
theorem W4_a13 (c : Dev nD) : W4 m ρ c (Proc.devRef .tc main_arg13) = m ((c.tc : Thread nD τ).loc main_arg13) :=
  (W4_of_ne m ρ c main_arg13 (by decide)).trans (W3_a13 m ρ c)
theorem W4_a14 (c : Dev nD) : W4 m ρ c (Proc.devRef .tc main_arg14) = m ((c.tc : Thread nD τ).loc main_arg14) :=
  (W4_of_ne m ρ c main_arg14 (by decide)).trans (W3_a14 m ρ c)
theorem W4_a15 (c : Dev nD) : W4 m ρ c (Proc.devRef .tc main_arg15) = m ((c.tc : Thread nD τ).loc main_arg15) :=
  (W4_of_ne m ρ c main_arg15 (by decide)).trans (W3_a15 m ρ c)
theorem W4_v3 (c : Dev nD) : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)
theorem W4_v6 (c : Dev nD) : W4 m ρ c (Proc.devRef .tc main_v6) = Cert.ReferenceIdeal.Read.val_main_v6 (F := Ideal) (m ((c.tc : Thread nD τ).loc main_arg1)) :=
  (W4_of_ne m ρ c main_v6 (by decide)).trans (W3_v6 m ρ c)
theorem W4_v26 (c : Dev nD) : W4 m ρ c (Proc.devRef .tc main_v26) = Cert.ReferenceIdeal.Read.val_main_v26 (F := Ideal) (m ((c.tc : Thread nD τ).loc main_arg1)) :=
  (W4_of_ne m ρ c main_v26 (by decide)).trans (W3_v26 m ρ c)

/-- The second region's output: the reference's second dense layer of the same arguments. -/
theorem W4_v46 (hA0 : ProdArray) (hA1 : Layer1Array) (c : Dev nD) (hfin : Params1 m c) :
    W4 m ρ c (Proc.devRef .tc main_v46)
      = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 6).trans ?_
  rw [hA1 (V3 m ρ) c]
  show Cert.Gcn.layerFolded (a := 100000) (K := 128) (b := 128) (W3 m ρ c (Proc.devRef .tc main_v40)) (W3 m ρ c (Proc.devRef .tc main_v42))
      (W3 m ρ c (Proc.devRef .tc main_v43)) (W3 m ρ c (Proc.devRef .tc main_v44)) (W3 m ρ c (Proc.devRef .tc main_v45))
      (W3 m ρ c (Proc.devRef .tc main_arg8)) = _
  rw [W3_a8]
  exact Cert.ReferenceIdeal.Layer1.layer_eq _ _ _ _ _ _ _ _ _ _ _ _ _ _ (W3_v40 m ρ hA0 c) (W3_v42 m ρ c) (W3_v43 m ρ c) (W3_v44 m ρ c)
    (W3_v45 m ρ c) hfin

end Cert.KernelIdeal.Whole

end
-- ==== Proof.RefLayer2.lean ====
/-
  The reference's normalised layer 2, read at an entry.

  Entry (r, k) of the rectified activations is the plain arrangement of the affine map applied to entry (r, k) of the
  aggregated features: the bias, scale, shift, mean and variance rows are broadcast along the rows, so each is read at
  its k-th entry.  The layer's product is then the sum over k of those entries against the weights, and under
  finiteness of the bias, scale and mean and a nonnegative finite variance it is the folded arrangement's sum, term
  by term.
-/
import proofs.«148522_j1709396983810_1_alg».proof.Proof.Gen.ReferenceIdeal.Read
import proofs.«148522_j1709396983810_1_alg».proof.Proof.Spec
import proofs.«148522_j1709396983810_1_alg».proof.Proof.Algebra

noncomputable section

namespace Cert.ReferenceIdeal.Layer2

open Cert.ReferenceIdeal Cert.ReferenceIdeal.Read Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal)) (x9 x10 x11 x12 x13 : (⟨S128, .f32⟩ : BufTy).Contents (Elt Ideal)) (x14 : (⟨S128x2, .f32⟩ : BufTy).Contents (Elt Ideal))

theorem row_idx0 (r : Fin 100000) (k : Fin 128) : idx_main_v72 (idx_main_v73 (ix2 r k)) = ix1 k :=
  funext fun a => Fin.ext (by match a with | ⟨0, _⟩ => rfl)
theorem row_idx1 (r : Fin 100000) (k : Fin 128) : idx_main_v79 (idx_main_v80 (ix2 r k)) = ix1 k :=
  funext fun a => Fin.ext (by match a with | ⟨0, _⟩ => rfl)
theorem row_idx2 (r : Fin 100000) (k : Fin 128) : idx_main_v82 (idx_main_v83 (ix2 r k)) = ix1 k :=
  funext fun a => Fin.ext (by match a with | ⟨0, _⟩ => rfl)
theorem row_idx3 (r : Fin 100000) (k : Fin 128) : idx_main_v85 (idx_main_v86 (ix2 r k)) = ix1 k :=
  funext fun a => Fin.ext (by match a with | ⟨0, _⟩ => rfl)

/-- Entry (r, k) of the rectified activations. -/
theorem act_entry (r : Fin 100000) (k : Fin 128) :
    val_main_v88 (F := Ideal) x0 x1 x2 x3 x4 x5 x6 x7 x8 x9 x10 x11 x12 x13 (ix2 r k)
      = Cert.Gcn.actPlain (val_main_v71 (F := Ideal) x0 x1 x2 x3 x4 x5 x6 x7 x8 (ix2 r k)) (x9 (ix1 k)) (x10 (ix1 k)) (x11 (ix1 k)) (x12 (ix1 k)) (x13 (ix1 k)) := by
  rw [val_main_v88_apply, val_main_v87_apply, val_main_v84_apply, val_main_v81_apply, val_main_v74_apply, val_main_v73_apply, val_main_v72_apply, val_main_v80_apply, val_main_v79_apply, val_main_v83_apply, val_main_v82_apply, val_main_v78_apply, val_main_v77_apply, val_main_v76_apply, val_main_v75_apply, val_main_cst_11_apply, val_main_v86_apply, val_main_v85_apply, val_main_call1_v0_apply, val_main_call1_cst_apply]
  rw [row_idx0, row_idx1, row_idx2, row_idx3]
  rfl

/-- The layer's product is the folded arrangement's, given the rows the folded arrangement is fed. -/
theorem layer_eq (h : S100000x128.Idx → EReal) (g be mub v : (⟨2, ![1, 128]⟩ : Shape).Idx → EReal)
    (hh : h = val_main_v71 (F := Ideal) x0 x1 x2 x3 x4 x5 x6 x7 x8)
    (hg : ∀ k : Fin 128, g (ix2 (0 : Fin 1) k) = x10 (ix1 k)) (hbe : ∀ k : Fin 128, be (ix2 (0 : Fin 1) k) = x11 (ix1 k))
    (hmub : ∀ k : Fin 128, mub (ix2 (0 : Fin 1) k) = x12 (ix1 k) - x9 (ix1 k)) (hv : ∀ k : Fin 128, v (ix2 (0 : Fin 1) k) = x13 (ix1 k))
    (hfin : ∀ k : Fin 128, (∃ r : ℝ, x9 (ix1 k) = (r : EReal)) ∧ (∃ r : ℝ, x10 (ix1 k) = (r : EReal)) ∧ (∃ r : ℝ, x12 (ix1 k) = (r : EReal))
      ∧ (∃ r : ℝ, 0 ≤ r ∧ x13 (ix1 k) = (r : EReal))) :
    Cert.Gcn.layerFolded h g be mub v x14 = val_main_v89 (F := Ideal) x0 x1 x2 x3 x4 x5 x6 x7 x8 x9 x10 x11 x12 x13 x14 := by
  subst hh
  funext i
  obtain ⟨r, q, rfl⟩ : ∃ (r : Fin 100000) (q : Fin 2), i = ix2 r q := ⟨i 0, i 1, eq_ix2 i⟩
  rw [Cert.Gcn.layerFolded_apply, val_main_v89_apply]
  refine Finset.sum_congr rfl fun k _ => ?_
  have el : lidx_main_v89 (ix2 r q) k = ix2 r k := funext fun a => Fin.ext (by match a with | ⟨0, _⟩ => rfl | ⟨1, _⟩ => rfl)
  have er : ridx_main_v89 (ix2 r q) k = ix2 k q := funext fun a => Fin.ext (by match a with | ⟨0, _⟩ => rfl | ⟨1, _⟩ => rfl)
  rw [el, er, act_entry, hg, hbe, hmub, hv]
  obtain ⟨⟨b, hb⟩, ⟨g', hg'⟩, ⟨mu, hmu⟩, ⟨vv, hv0, hvv⟩⟩ := hfin k
  rw [hb, hg', hmu, hvv, Cert.Gcn.actFolded_eq_actPlain _ _ b g' mu vv hv0]

end Cert.ReferenceIdeal.Layer2

end
-- ==== Proof.Fold3.lean ====
/-
  The idealized kernel program's buffers from the first normalised layer's exit to the result.

  The third stretch of host operations aggregates the second region's rows exactly as before, subtracts the second
  bias from the second mean and lays the second layer's parameter vectors out as rows; the third region writes the
  folded arrangement's normalised layer into two columns; the last stretch aggregates once more and adds the last bias.
  Each aggregation is the reference's, with the reference's own index vectors and weights, so the result is the
  reference's result term of the same sixteen arguments.
-/
import proofs.«148522_j1709396983810_1_alg».proof.Proof.Fold2
import proofs.«148522_j1709396983810_1_alg».proof.Proof.RefLayer2

set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The third region's output array is the folded arrangement's normalised layer of its six input arrays. -/
abbrev Layer2Array : Prop :=
  ∀ (V : (c : Dev nD) → (b : Ref sig .tc) → Buf (Elt Ideal) ((c : Thread nD τ).loc b)) (c : Dev nD),
    (dat2 (F := Ideal) V c).arrAt 6 cfg2.N
      = Cert.Gcn.layerFolded (a := 100000) (K := 128) (b := 2) (V c (Pipeline.arrRef spec2 0)) (V c (Pipeline.arrRef spec2 1))
          (V c (Pipeline.arrRef spec2 2)) (V c (Pipeline.arrRef spec2 3)) (V c (Pipeline.arrRef spec2 4)) (V c (Pipeline.arrRef spec2 5))

/-- What the precondition gives of the second layer's parameters. -/
abbrev Params2 (c : Dev nD) : Prop :=
  ∀ k : Fin 128, (∃ r : ℝ, (m ((c.tc : Thread nD τ).loc main_arg9)) (ix1 k) = (r : EReal)) ∧ (∃ r : ℝ, (m ((c.tc : Thread nD τ).loc main_arg10)) (ix1 k) = (r : EReal))
    ∧ (∃ r : ℝ, (m ((c.tc : Thread nD τ).loc main_arg12)) (ix1 k) = (r : EReal)) ∧ (∃ r : ℝ, 0 ≤ r ∧ (m ((c.tc : Thread nD τ).loc main_arg13)) (ix1 k) = (r : EReal))

/-! ## After the third stretch -/

theorem W5_a14 (c : Dev nD) : W5 m ρ c (Proc.devRef .tc main_arg14) = m ((c.tc : Thread nD τ).loc main_arg14) := by
  show StableHlo.after hostOps2 (W4 m ρ c) (Proc.devRef .tc main_arg14) = _
  after_results_simp
  exact W4_a14 m ρ c
theorem W5_a15 (c : Dev nD) : W5 m ρ c (Proc.devRef .tc main_arg15) = m ((c.tc : Thread nD τ).loc main_arg15) := by
  show StableHlo.after hostOps2 (W4 m ρ c) (Proc.devRef .tc main_arg15) = _
  after_results_simp
  exact W4_a15 m ρ c
theorem W5_v3 (c : Dev nD) : W5 m ρ c (Proc.devRef .tc main_v3) = Cert.ReferenceIdeal.Read.val_main_v3 (F := Ideal) (m ((c.tc : Thread nD τ).loc main_arg1)) := by
  show StableHlo.after hostOps2 (W4 m ρ c) (Proc.devRef .tc main_v3) = _
  after_results_simp
  exact W4_v3 m ρ c
theorem W5_v6 (c : Dev nD) : W5 m ρ c (Proc.devRef .tc main_v6) = Cert.ReferenceIdeal.Read.val_main_v6 (F := Ideal) (m ((c.tc : Thread nD τ).loc main_arg1)) := by
  show StableHlo.after hostOps2 (W4 m ρ c) (Proc.devRef .tc main_v6) = _
  after_results_simp
  exact W4_v6 m ρ c
theorem W5_v26 (c : Dev nD) : W5 m ρ c (Proc.devRef .tc main_v26) = Cert.ReferenceIdeal.Read.val_main_v26 (F := Ideal) (m ((c.tc : Thread nD τ).loc main_arg1)) := by
  show StableHlo.after hostOps2 (W4 m ρ c) (Proc.devRef .tc main_v26) = _
  after_results_simp
  exact W4_v26 m ρ c

/-- The aggregated second layer: the reference's aggregation of its second dense layer. -/
theorem W5_v59 (hA0 : ProdArray) (hA1 : Layer1Array) (c : Dev nD) (hfin : Params1 m c) :
    W5 m ρ c (Proc.devRef .tc main_v59)
      = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2 (W4 m ρ c) (Proc.devRef .tc main_v59) = _
  after_results_simp
  rw [W4_v6, W4_v46 m ρ hA0 hA1 c hfin, W4_v3, W4_v26]
  rfl

/-- The scale, laid out as a row. -/
theorem W5_v61 (c : Dev nD) (k : Fin 128) :
    (W5 m ρ c (Proc.devRef .tc main_v61) : S1x128.Idx → EReal) (ix2 (0 : Fin 1) k) = (m ((c.tc : Thread nD τ).loc main_arg10)) (ix1 k) := by
  show (StableHlo.after hostOps2 (W4 m ρ c) (Proc.devRef .tc main_v61) : S1x128.Idx → EReal) (ix2 (0 : Fin 1) k) = _
  after_results_simp
  rw [W4_a10]
  exact shapeCast_a_1a_apply _ _ 0 k
/-- The shift, laid out as a row. -/
theorem W5_v62 (c : Dev nD) (k : Fin 128) :
    (W5 m ρ c (Proc.devRef .tc main_v62) : S1x128.Idx → EReal) (ix2 (0 : Fin 1) k) = (m ((c.tc : Thread nD τ).loc main_arg11)) (ix1 k) := by
  show (StableHlo.after hostOps2 (W4 m ρ c) (Proc.devRef .tc main_v62) : S1x128.Idx → EReal) (ix2 (0 : Fin 1) k) = _
  after_results_simp
  rw [W4_a11]
  exact shapeCast_a_1a_apply _ _ 0 k
/-- The variance, laid out as a row. -/
theorem W5_v64 (c : Dev nD) (k : Fin 128) :
    (W5 m ρ c (Proc.devRef .tc main_v64) : S1x128.Idx → EReal) (ix2 (0 : Fin 1) k) = (m ((c.tc : Thread nD τ).loc main_arg13)) (ix1 k) := by
  show (StableHlo.after hostOps2 (W4 m ρ c) (Proc.devRef .tc main_v64) : S1x128.Idx → EReal) (ix2 (0 : Fin 1) k) = _
  after_results_simp
  rw [W4_a13]
  exact shapeCast_a_1a_apply _ _ 0 k
/-- The mean less the bias, laid out as a row. -/
theorem W5_v63 (c : Dev nD) (k : Fin 128) :
    (W5 m ρ c (Proc.devRef .tc main_v63) : S1x128.Idx → EReal) (ix2 (0 : Fin 1) k) = rowSub (m ((c.tc : Thread nD τ).loc main_arg12)) (m ((c.tc : Thread nD τ).loc main_arg9)) k := by
  show (StableHlo.after hostOps2 (W4 m ρ c) (Proc.devRef .tc main_v63) : S1x128.Idx → EReal) (ix2 (0 : Fin 1) k) = _
  after_results_simp
  rw [W4_a12, W4_a9]
  exact shapeCast_a_1a_apply _ _ 0 k

/-! ## At the third region's exit -/

theorem W6_a15 (c : Dev nD) : W6 m ρ c (Proc.devRef .tc main_arg15) = m ((c.tc : Thread nD τ).loc main_arg15) :=
  (W6_of_ne m ρ c main_arg15 (by decide)).trans (W5_a15 m ρ c)
theorem W6_v3 (c : Dev nD) : W6 m ρ c (Proc.devRef .tc main_v3) = Cert.ReferenceIdeal.Read.val_main_v3 (F := Ideal) (m ((c.tc : Thread nD τ).loc main_arg1)) :=
  (W6_of_ne m ρ c main_v3 (by decide)).trans (W5_v3 m ρ c)
theorem W6_v6 (c : Dev nD) : W6 m ρ c (Proc.devRef .tc main_v6) = Cert.ReferenceIdeal.Read.val_main_v6 (F := Ideal) (m ((c.tc : Thread nD τ).loc main_arg1)) :=
  (W6_of_ne m ρ c main_v6 (by decide)).trans (W5_v6 m ρ c)
theorem W6_v26 (c : Dev nD) : W6 m ρ c (Proc.devRef .tc main_v26) = Cert.ReferenceIdeal.Read.val_main_v26 (F := Ideal) (m ((c.tc : Thread nD τ).loc main_arg1)) :=
  (W6_of_ne m ρ c main_v26 (by decide)).trans (W5_v26 m ρ c)

/-- The third region's output: the reference's third dense layer of the same arguments. -/
theorem W6_v65 (hA0 : ProdArray) (hA1 : Layer1Array) (hA2 : Layer2Array) (c : Dev nD) (hfin1 : Params1 m c) (hfin2 : Params2 m c) :
    W6 m ρ c (Proc.devRef .tc main_v65)
      = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W6_arr m ρ c 6).trans ?_
  rw [hA2 (V5 m ρ) c]
  show Cert.Gcn.layerFolded (a := 100000) (K := 128) (b := 2) (W5 m ρ c (Proc.devRef .tc main_v59)) (W5 m ρ c (Proc.devRef .tc main_v61))
      (W5 m ρ c (Proc.devRef .tc main_v62)) (W5 m ρ c (Proc.devRef .tc main_v63)) (W5 m ρ c (Proc.devRef .tc main_v64))
      (W5 m ρ c (Proc.devRef .tc main_arg14)) = _
  rw [W5_a14]
  exact Cert.ReferenceIdeal.Layer2.layer_eq _ _ _ _ _ _ _ _ _ _ _ _ _ _ _ _ _ _ _ _ (W5_v59 m ρ hA0 hA1 c hfin1) (W5_v61 m ρ c) (W5_v62 m ρ c)
    (W5_v63 m ρ c) (W5_v64 m ρ c) hfin2

/-! ## The result -/

/-- The result buffer at the last boundary: the reference's result term of the same sixteen arguments. -/
theorem W7_v81 (hA0 : ProdArray) (hA1 : Layer1Array) (hA2 : Layer2Array) (c : Dev nD) (hfin1 : Params1 m c) (hfin2 : Params2 m c) :
    W7 m ρ c (Proc.devRef .tc main_v81)
      = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show StableHlo.after hostOps3 (W6 m ρ c) (Proc.devRef .tc main_v81) = _
  after_results_simp
  rw [W6_v6, W6_v65 m ρ hA0 hA1 hA2 c hfin1 hfin2, W6_v3, W6_v26, W6_a15]
  rfl

end Cert.KernelIdeal.Whole

end
-- ==== Proof.Finite.lean ====
/-
  What the precondition says of the eight small parameter rows.

  The precondition is one bit: the conjunction, over all sixteen arguments, of "every entry has absolute value below +∞",
  and then of "every entry of the two variance rows is at or above zero".  A conjunction of bits is 1 only if each bit is 1;
  a reduction by "and" over a whole row that is 1 had a 1 at every entry; an extended real whose absolute value
  max x (-x) is below +∞ is neither -∞ nor +∞, so it is a real; and an extended real at or above the zero word's value
  is at or above 0.  Only the conjuncts of the eight rows are opened; the large arrays' conjuncts are split off unread.
-/
import proofs.«148522_j1709396983810_1_alg».proof.Defs
import Idealize.ShloMosaic.Lib.ReduceAll
import Idealize.ShloMosaic.Lib.ValueIdx

noncomputable section

namespace Cert.KernelIdeal.Finite

open Idealize.ShloMosaic Idealize.ShloMosaic.ValueIdx Idealize.SL.Sem
open Cert.Pre_finite_inputs (S100000x128 S2x1600000 S128x128 S128 S128x2 S2 S_ fn fn_part1 fn_part2 fn_part3 fn_part4)
open Cert.Pre_finite_inputs.Facts

/-- The shape with no axes has one index. -/
instance : Subsingleton S_.Idx := ⟨fun a b => funext fun d => d.elim0⟩

/-- A decided proposition's bit is 1 exactly when the proposition holds. -/
theorem ofBool_decide_eq_one {p : Prop} [Decidable p] : BitVec.ofBool (decide p) = 1#1 ↔ p := by
  by_cases hp : p <;> simp [hp]

/-- An extended real whose absolute value is below +∞ is a real. -/
theorem real_of_abs_lt (x : EReal)
    (h : Ideal.cmp .olt (max x (-x)) (Ideal.ofBits .f32 0x7F800000#32) = 1#1) : ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

/-- An extended real at or above the zero word's value is at or above zero. -/
theorem nonneg_of_oge (x : EReal)
    (h : Ideal.cmp .oge x (Ideal.ofBits .f32 0x00000000#32) = 1#1) : 0 ≤ x := by
  have h0 : Ideal.ofBits .f32 0x00000000#32 = 0 := by simp [Ideal.ofBits, Ideal.ieee]
  rw [h0] at h
  exact ofBool_decide_eq_one.mp h

section Rows
variable [hP : Cert.Pre_finite_inputs.Facts]

/-- "Every entry of a row of 128 has absolute value below +∞", read at entry k: the entry is a real. -/
theorem finite_of_all (a : FVec Ideal S128 .f32) (init : IVec S_ 1)
    (h : Host.reduce IntOp.andi
          (cmpf .olt (Host.absf a) (broadcastInDim S128 ![] bcast_S_S128 (constant S_ .f32 0x7F800000#32)))
          init reducesTo_S128_S_d0 h_S_ ix0 = 1#1) (k : Fin 128) : ∃ r : ℝ, a (ix1 k) = (r : EReal) :=
  real_of_abs_lt _ (Host.reduce_andi_all _ init reducesTo_S128_S_d0 h_S_ ix0 h (ix1 k))

/-- "Every entry of a row of 128 is at or above zero", read at entry k. -/
theorem nonneg_of_all (a : FVec Ideal S128 .f32) (init : IVec S_ 1)
    (h : Host.reduce IntOp.andi
          (cmpf .oge a (broadcastInDim S128 ![] bcast_S_S128 (constant S_ .f32 0x00000000#32)))
          init reducesTo_S128_S_d0 h_S_ ix0 = 1#1) (k : Fin 128) : 0 ≤ a (ix1 k) :=
  nonneg_of_oge _ (Host.reduce_andi_all _ init reducesTo_S128_S_d0 h_S_ ix0 h (ix1 k))

/-- A real entry that is at or above zero as an extended real is a nonnegative real. -/
theorem nonneg_real {x : EReal} (hf : ∃ r : ℝ, x = (r : EReal)) (hx : 0 ≤ x) : ∃ r : ℝ, 0 ≤ r ∧ x = (r : EReal) := by
  obtain ⟨r, rfl⟩ := hf
  exact ⟨r, by exact_mod_cast hx, rfl⟩

/-- The precondition's bit, over arbitrary argument arrays, opened at the eight rows. -/
theorem decode (a0 : FVec Ideal S100000x128 .f32) (a1 : IVec S2x1600000 32) (a2 : FVec Ideal S128x128 .f32)
    (a3 a4 a5 a6 a7 : FVec Ideal S128 .f32) (a8 : FVec Ideal S128x128 .f32) (a9 a10 a11 a12 a13 : FVec Ideal S128 .f32)
    (a14 : FVec Ideal S128x2 .f32) (a15 : FVec Ideal S2 .f32)
    (h : fn (F := Ideal) a0 a1 a2 a3 a4 a5 a6 a7 a8 a9 a10 a11 a12 a13 a14 a15 ix0 = 1#1) (k : Fin 128) :
    (∃ r : ℝ, a3 (ix1 k) = (r : EReal)) ∧ (∃ r : ℝ, a4 (ix1 k) = (r : EReal)) ∧ (∃ r : ℝ, a6 (ix1 k) = (r : EReal)) ∧
    (∃ r : ℝ, 0 ≤ r ∧ a7 (ix1 k) = (r : EReal)) ∧
    (∃ r : ℝ, a9 (ix1 k) = (r : EReal)) ∧ (∃ r : ℝ, a10 (ix1 k) = (r : EReal)) ∧ (∃ r : ℝ, a12 (ix1 k) = (r : EReal)) ∧
    (∃ r : ℝ, 0 ≤ r ∧ a13 (ix1 k) = (r : EReal)) := by
  unfold fn fn_part1 fn_part2 fn_part3 fn_part4 at h
  dsimp only at h
  simp only [andi, IntOp.andi_eq_one] at h
  obtain ⟨⟨⟨⟨⟨⟨⟨⟨⟨⟨⟨⟨⟨⟨⟨⟨-, -⟩, h3⟩, h4⟩, -⟩, h6⟩, h7⟩, -⟩, h9⟩, h10⟩, -⟩, h12⟩, h13⟩, -⟩, -⟩, p7⟩, p13⟩ := h
  exact ⟨finite_of_all a3 _ h3 k, finite_of_all a4 _ h4 k, finite_of_all a6 _ h6 k,
    nonneg_real (finite_of_all a7 _ h7 k) (nonneg_of_all a7 _ p7 k),
    finite_of_all a9 _ h9 k, finite_of_all a10 _ h10 k, finite_of_all a12 _ h12 k,
    nonneg_real (finite_of_all a13 _ h13 k) (nonneg_of_all a13 _ p13 k)⟩

/-- Under the precondition, on every device, entry k of each of the eight parameter rows is a real, and the two variance
    rows' entries are nonnegative. -/
theorem params_finite
    (m : (ℓ : Loc Cert.KernelIdeal.nD Cert.KernelIdeal.τ Cert.KernelIdeal.sig) → Buf (Elt Ideal) ℓ)
    (hpre : Cert.Pre_KernelIdeal m) (c : Dev Cert.KernelIdeal.nD) (k : Fin 128) :
    (∃ r : ℝ, m ((c.tc : Thread Cert.KernelIdeal.nD Cert.KernelIdeal.τ).loc Cert.KernelIdeal.main_arg3) (ix1 k) = (r : EReal)) ∧
    (∃ r : ℝ, m ((c.tc : Thread Cert.KernelIdeal.nD Cert.KernelIdeal.τ).loc Cert.KernelIdeal.main_arg4) (ix1 k) = (r : EReal)) ∧
    (∃ r : ℝ, m ((c.tc : Thread Cert.KernelIdeal.nD Cert.KernelIdeal.τ).loc Cert.KernelIdeal.main_arg6) (ix1 k) = (r : EReal)) ∧
    (∃ r : ℝ, 0 ≤ r ∧ m ((c.tc : Thread Cert.KernelIdeal.nD Cert.KernelIdeal.τ).loc Cert.KernelIdeal.main_arg7) (ix1 k) = (r : EReal)) ∧
    (∃ r : ℝ, m ((c.tc : Thread Cert.KernelIdeal.nD Cert.KernelIdeal.τ).loc Cert.KernelIdeal.main_arg9) (ix1 k) = (r : EReal)) ∧
    (∃ r : ℝ, m ((c.tc : Thread Cert.KernelIdeal.nD Cert.KernelIdeal.τ).loc Cert.KernelIdeal.main_arg10) (ix1 k) = (r : EReal)) ∧
    (∃ r : ℝ, m ((c.tc : Thread Cert.KernelIdeal.nD Cert.KernelIdeal.τ).loc Cert.KernelIdeal.main_arg12) (ix1 k) = (r : EReal)) ∧
    (∃ r : ℝ, 0 ≤ r ∧ m ((c.tc : Thread Cert.KernelIdeal.nD Cert.KernelIdeal.τ).loc Cert.KernelIdeal.main_arg13) (ix1 k) = (r : EReal)) :=
  decode _ _ _ _ _ _ _ _ _ _ _ _ _ _ _ _ (congrFun (hpre c) ix0) k

end Rows

end Cert.KernelIdeal.Finite

end
-- ==== Proof.lean ====
/-
  The proof that the kernel program, its idealized reading and the idealized reference meet the certificate's claim.

  All three programs compute a three-layer graph convolution of a node array x over an edge list: a dense product
  x · W1; an aggregation of rows along the edges; a normalised layer (shift by a mean, scale by a row over the square
  root of a variance plus a small positive offset, add a row, cut off at zero, multiply by W2); the same aggregation;
  a second normalised layer into two columns with W3; the aggregation once more and the last bias.  The kernel program
  runs the three dense steps as three tiled regions with the aggregations as host operations between them; the
  reference is host operations throughout.

  The frames: each program runs to the end with its sixteen arguments unchanged; for the two kernel programs this is
  the generated frame, for the reference its generated run with the result dropped.  The idealized kernel is the
  kernel's own text read over the extended reals: nothing was rewritten, so there is nothing to preserve.

  The algebraic claim.  The idealized kernel's result buffer ends at the last boundary's contents of the fold of its
  seven segments.  Each region's output array is, entry by entry, the product (first region) or the folded
  arrangement's normalised layer (second and third regions) of the arrays the region finds.  The two programs differ
  only inside the normalisation: the kernel subtracts the bias from the mean beforehand and multiplies by
  g · rsqrt (v + e), where the reference adds the bias, subtracts the mean and multiplies by g / sqrt (v + e).  For
  finite bias, mean and scale and a variance v ≥ 0 — which is what the precondition says of the eight parameter rows —
  these are the same extended real at every entry h, finite or not.  So the kernel's result is the reference's result
  term of the same sixteen arguments; the reference's run ends at that term of its own arguments, which agree with the
  kernel's.
-/
import proofs.«148522_j1709396983810_1_alg».proof.Defs
import proofs.«148522_j1709396983810_1_alg».proof.Proof.Gen.Kernel
import proofs.«148522_j1709396983810_1_alg».proof.Proof.Gen.Kernel.Skeleton
import proofs.«148522_j1709396983810_1_alg».proof.Proof.Gen.Kernel.Launch
import proofs.«148522_j1709396983810_1_alg».proof.Proof.Gen.Kernel.Points
import proofs.«148522_j1709396983810_1_alg».proof.Proof.Gen.Kernel.Frame
import proofs.«148522_j1709396983810_1_alg».proof.Proof.Gen.KernelIdeal
import proofs.«148522_j1709396983810_1_alg».proof.Proof.Gen.KernelIdeal.Skeleton
import proofs.«148522_j1709396983810_1_alg».proof.Proof.Gen.KernelIdeal.Launch
import proofs.«148522_j1709396983810_1_alg».proof.Proof.Gen.KernelIdeal.Points
import proofs.«148522_j1709396983810_1_alg».proof.Proof.Gen.KernelIdeal.Frame
import proofs.«148522_j1709396983810_1_alg».proof.Proof.Gen.ReferenceIdeal
import proofs.«148522_j1709396983810_1_alg».proof.Proof.Gen.Pre_finite_inputs
import proofs.«148522_j1709396983810_1_alg».proof.Proof.Gen.ReferenceIdeal.Run
import proofs.«148522_j1709396983810_1_alg».proof.Proof.Gen.ReferenceIdeal.Read
import proofs.«148522_j1709396983810_1_alg».proof.Proof.KernelRun
import proofs.«148522_j1709396983810_1_alg».proof.Proof.Region0
import proofs.«148522_j1709396983810_1_alg».proof.Proof.Fold1
import proofs.«148522_j1709396983810_1_alg».proof.Proof.Region1
import proofs.«148522_j1709396983810_1_alg».proof.Proof.Region2
import proofs.«148522_j1709396983810_1_alg».proof.Proof.Fold3
import proofs.«148522_j1709396983810_1_alg».proof.Proof.Finite
import Idealize.ShloMosaic.Adequacy
import Idealize.ShloMosaic.Init

noncomputable section

namespace Cert.Proof

open Idealize.ShloMosaic Idealize.SL.Sem

/-- The kernel program runs to the end with its arguments unchanged. -/
theorem frame_k : Cert.frame_Kernel := fun m ρ _ => Cert.Kernel.Gen.frame m ρ

/-- So does its idealized reading. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- Both idealized programs end, from memories that agree on the sixteen arguments, with the result buffer at the
    reference's result term of the kernel's arguments: the kernel because each of its regions writes the product or the
    normalised layer of what it finds and the two arrangements of the normalisation agree on finite parameters with a
    nonnegative variance, the reference because that term is what its operations compose to and its arguments are the
    kernel's. -/
theorem algebraic : Cert.algebraic_KernelIdeal_ReferenceIdeal := by
  intro m ρ m' ρ' hpre hagree
  have hA0 : Cert.KernelIdeal.Whole.ProdArray := fun V c => Cert.KernelIdeal.Regions.array0 V c
  have hA1 : Cert.KernelIdeal.Whole.Layer1Array := fun V c => Cert.KernelIdeal.Regions.array1 V c
  have hA2 : Cert.KernelIdeal.Whole.Layer2Array := fun V c => Cert.KernelIdeal.Regions.array2 V c
  have hfin1 : ∀ c, Cert.KernelIdeal.Whole.Params1 m c := fun c k =>
    have h := Cert.KernelIdeal.Finite.params_finite m hpre c k
    ⟨h.1, h.2.1, h.2.2.1, h.2.2.2.1⟩
  have hfin2 : ∀ c, Cert.KernelIdeal.Whole.Params2 m c := fun c k =>
    have h := (Cert.KernelIdeal.Finite.params_finite m hpre c k).2.2.2.2
    ⟨h.1, h.2.1, h.2.2.1, h.2.2.2⟩
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.Whole.W7_v81 m ρ hA0 hA1 hA2 c (hfin1 c) (hfin2 c)), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v105_eq m' c, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
